-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048 : Shape := ⟨2, ![16, 2048]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S16x2048 : S_.BroadcastsInDim S16x2048 (![] : Fin 0 → Fin S16x2048.rank)
  reducesTo_S16x2048_S_d0_1 : S16x2048.ReducesTo [0, 1] S_

variable [Facts]

def fn {F : FTy → Type} [FloatOps F] (main_arg0 : FVec F S16x2048x128 .f32) (main_arg1 : FVec F S16x2048 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  main_v8
-- ==== Kernel.lean ====
abbrev S16x2048x128 : Shape := ⟨3, ![16, 2048, 128]⟩
abbrev S16x2048 : Shape := ⟨2, ![16, 2048]⟩
abbrev S16x2048x1 : Shape := ⟨3, ![16, 2048, 1]⟩
abbrev S16x1x128 : Shape := ⟨3, ![16, 1, 128]⟩
abbrev S1x2048x128 : Shape := ⟨3, ![1, 2048, 128]⟩
abbrev S1x2048x1 : Shape := ⟨3, ![1, 2048, 1]⟩
abbrev S1x1x128 : Shape := ⟨3, ![1, 1, 128]⟩
abbrev S2048x128 : Shape := ⟨2, ![2048, 128]⟩
abbrev S1x2048 : Shape := ⟨2, ![1, 2048]⟩
abbrev S2048x1 : Shape := ⟨2, ![2048, 1]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x128 : Shape := ⟨2, ![1, 128]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S16x2048x128, .f32⟩
  | .hbm, ⟨1, _⟩ => ⟨S16x2048, .f32⟩
  | .hbm, ⟨2, _⟩ => ⟨S16x2048x1, .f32⟩
  | .hbm, ⟨3, _⟩ => ⟨S16x1x128, .f32⟩
  | .hbm, ⟨4, _⟩ => ⟨S_, .f32⟩
  | .hbm, ⟨5, _⟩ => ⟨S16x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x1, .f32⟩
  | .local _ .vmem, ⟨3, _⟩ => ⟨S1x2048x1, .f32⟩
  | .local _ .vmem, ⟨4, _⟩ => ⟨S1x1x128, .f32⟩
  | .local _ .vmem, ⟨5, _⟩ => ⟨S1x1x128, .f32⟩
  | .local _ .vmem, ⟨6, _⟩ => ⟨S2048x128, .bf16⟩
  | .local _ .vmem, ⟨7, _⟩ => ⟨S1x2048, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_10 : BitVec 32 := 0#32
  let v27 : BitVec 1 := Scalar.cmpi .ne v26 c0_i32_10
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S16x2048_S16x2048x1_0_1 : S16x2048.BroadcastsInDim S16x2048x1 (![0, 1] : Fin 2 → Fin S16x2048x1.rank)
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  broadcasts_S2048x1_S2048x128 : S2048x1.Broadcasts S2048x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S512x128 : 0 < S512x128.numel
  reduces_S512x2048_S512 : S512x2048.Reduces [1] S512
  shapeCasts_S512_S512x1 : S512.ShapeCasts S512x1
  broadcasts_S512x1_S512x2048 : S512x1.Broadcasts S512x2048
  reduces_S512x2048_S2048 : S512x2048.Reduces [0] S2048
  shapeCasts_S2048_S1x2048 : S2048.ShapeCasts S1x2048
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  bcast_S_S16x2048 : S_.BroadcastsInDim S16x2048 (![] : Fin 0 → Fin S16x2048.rank)
  dot_S512x128_S2048x128_S512x2048_1_1_0_0_n_n_wf : DotDims.WF S512x128 S2048x128 S512x2048 [1] [1] [0] [0] [] []
  dot_S1x2048_S2048x128_S1x128_1_0_0_1_n_n_wf : DotDims.WF S1x2048 S2048x128 S1x128 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x128.size a ≤ S2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x2048x128.size a
  hwx0_0 : ∀ i : grid0.Coords, EltTy.bits .f32 = 32 ∨ (Rect.block (s := S16x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S16x2048x1.size a
  hwx0_1 : ∀ i : grid0.Coords, EltTy.bits .f32 = 32 ∨ (Rect.block (s := S16x2048x1) S1x2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S1x2048_S2048x128_S1x128_1_0_0_1_n_n : DotDims S1x2048 S2048x128 S1x128 where
  lhsContracting := [1]
  rhsContracting := [0]
  lhsNonContracting := [0]
  rhsNonContracting := [1]
  lhsBatch := []
  rhsBatch := []
  wf := dot_S1x2048_S2048x128_S1x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x2048x128 : Shape := ⟨3, ![16, 2048, 128]⟩
abbrev S16x2048 : Shape := ⟨2, ![16, 2048]⟩
abbrev S16x2048x1 : Shape := ⟨3, ![16, 2048, 1]⟩
abbrev S16x2048x2048 : Shape := ⟨3, ![16, 2048, 2048]⟩
abbrev S_ : Shape := ⟨0, ![]⟩
abbrev S16x1x2048 : Shape := ⟨3, ![16, 1, 2048]⟩
abbrev S16x128 : Shape := ⟨2, ![16, 128]⟩
abbrev S16x1x128 : Shape := ⟨3, ![16, 1, 128]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048, .f32⟩
  | .hbm, ⟨2, _⟩ => ⟨S16x2048x1, .f32⟩
  | .hbm, ⟨3, _⟩ => ⟨S16x2048x128, .f32⟩
  | .hbm, ⟨4, _⟩ => ⟨S16x2048x128, .f32⟩
  | .hbm, ⟨5, _⟩ => ⟨S16x2048x2048, .f32⟩
  | .hbm, ⟨6, _⟩ => ⟨S_, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x1x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048, .f32⟩
  | .hbm, ⟨17, _⟩ => ⟨S16x1x2048, .f32⟩
  | .hbm, ⟨18, _⟩ => ⟨S16x2048x2048, .f32⟩
  | .hbm, ⟨19, _⟩ => ⟨S16x2048x2048, .f32⟩
  | .hbm, ⟨20, _⟩ => ⟨S16x2048x128, .f32⟩
  | .hbm, ⟨21, _⟩ => ⟨S_, .f32⟩
  | .hbm, ⟨22, _⟩ => ⟨S16x128, .f32⟩
  | .hbm, ⟨23, _⟩ => ⟨S16x1x128, .f32⟩
  | .hbm, ⟨24, _⟩ => ⟨S_, .f32⟩
  | .hbm, ⟨25, _⟩ => ⟨S16x1x128, .f32⟩
  | .hbm, ⟨26, _⟩ => ⟨S16x1x128, .f32⟩
  | .hbm, ⟨27, _⟩ => ⟨S_, .f32⟩
  | .hbm, ⟨28, _⟩ => ⟨S16x2048, .f32⟩
  | .hbm, ⟨29, _⟩ => ⟨S_, .f32⟩
  | .hbm, ⟨30, _⟩ => ⟨S16x2048, .f32⟩
  | .hbm, ⟨31, _⟩ => ⟨S16x2048, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S16x2048_S16x2048x1_0_1 : S16x2048.BroadcastsInDim S16x2048x1 (![0, 1] : Fin 2 → Fin S16x2048x1.rank)
  bcast_S16x2048x1_S16x2048x128_0_1_2 : S16x2048x1.BroadcastsInDim S16x2048x128 (![0, 1, 2] : Fin 3 → Fin S16x2048x128.rank)
  reducesTo_S16x2048x2048_S16x2048_d1 : S16x2048x2048.ReducesTo [1] S16x2048
  h_S_ : 0 < S_.numel
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  reducesTo_S16x2048x128_S16x128_d1 : S16x2048x128.ReducesTo [1] S16x128
  bcast_S16x128_S16x1x128_0_2 : S16x128.BroadcastsInDim S16x1x128 (![0, 2] : Fin 2 → Fin S16x1x128.rank)
  bcast_S_S16x1x128 : S_.BroadcastsInDim S16x1x128 (![] : Fin 0 → Fin S16x1x128.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_1_1_2_2_0_0_wf : DotDims.WF S16x2048x2048 S16x2048x128 S16x2048x128 [1] [1] [2] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_1_1_2_2_0_0 : DotDims S16x2048x2048 S16x2048x128 S16x2048x128 where
  lhsContracting := [1]
  rhsContracting := [1]
  lhsNonContracting := [2]
  rhsNonContracting := [2]
  lhsBatch := [0]
  rhsBatch := [0]
  wf := dot_S16x2048x2048_S16x2048x128_S16x2048x128_1_1_2_2_0_0_wf

class Facts : Prop extends Facts₀ where

variable [Facts]
-- ==== Proof.Spec.lean ====
/-
  The two results as plain functions of the masked input, over the extended reals.

  Write X[b,l,d] = input[b,l,d] · mask[b,l]. The scores of batch b are the Gram matrix
  S[m,l] = ∑_d X[m,d] · X[l,d]. Each row m of S is turned into softmax weights
  W[m,l] = exp (S[m,l] − max_l S[m,l]) / ∑_l exp (S[m,l] − max_l S[m,l]).
  The first result is the mean over m of ∑_l W[m,l] · X[l,d]; one program takes the column sums
  of W first (four tiles of 512 rows), scales them by 2⁻¹¹ and contracts with X, the other contracts
  first, sums over m and divides by 2048. The second result is the mean over l of W[m,l].
-/
import Idealize.ShloMosaic.PureOps.Ideal
import Idealize.ShloMosaic.Lib.ValueIdx

noncomputable section

namespace Cert.AttnSpec

open Idealize.ShloMosaic

/-- An array of extents 16 × 2048 × 128 read by its three coordinates. -/
def arr3 (a : (⟨3, ![16, 2048, 128]⟩ : Shape).Idx → EReal) : Fin 16 → Fin 2048 → Fin 128 → EReal :=
  fun b l d => a (ValueIdx.ix3 b l d)

/-- An array of extents 16 × 2048 read by its two coordinates. -/
def arr2 (a : (⟨2, ![16, 2048]⟩ : Shape).Idx → EReal) : Fin 16 → Fin 2048 → EReal :=
  fun b l => a (ValueIdx.ix2 b l)

/-- The input with row l of batch b scaled by the mask entry of that row. -/
def xm (x : Fin 16 → Fin 2048 → Fin 128 → EReal) (mk : Fin 16 → Fin 2048 → EReal) :
    Fin 16 → Fin 2048 → Fin 128 → EReal :=
  fun b l d => x b l d * mk b l

/-- The word of −∞, the starting value of a running maximum. -/
def negInf : EReal := Ideal.ofBits .f32 0xFF800000#32
/-- The word of 2⁻¹¹ = 1/2048. -/
def invL : EReal := Ideal.ofBits .f32 0x3A000000#32
/-- The word of 2¹¹ = 2048. -/
def lenL : EReal := Ideal.ofBits .f32 0x45000000#32

variable (X : Fin 16 → Fin 2048 → Fin 128 → EReal)

/-- Score of rows m and l of batch b: their inner product. -/
def sc (b : Fin 16) (m l : Fin 2048) : EReal := ∑ d : Fin 128, X b m d * X b l d

/-- The largest score in row m. -/
def rmax (b : Fin 16) (m : Fin 2048) : EReal :=
  (Finset.univ : Finset (Fin 2048)).fold max negInf (fun l => sc X b m l)

/-- The shifted exponential of a score. -/
def ex (b : Fin 16) (m l : Fin 2048) : EReal := Ideal.exp (sc X b m l - rmax X b m)

/-- The normalizer of row m. -/
def zs (b : Fin 16) (m : Fin 2048) : EReal := ∑ l : Fin 2048, ex X b m l

/-- The softmax weight of column l in row m. -/
def wt (b : Fin 16) (m l : Fin 2048) : EReal := Ideal.div (ex X b m l) (zs X b m)

/-- Row r of the j-th tile of 512 rows. -/
def tileRow (j : Fin 4) (r : Fin 512) : Fin 2048 := ⟨j.val * 512 + r.val, by omega⟩

/-- First result, column sums first: ∑_l ((∑_tiles ∑_rows W[row,l]) · 2⁻¹¹) · X[l,d]. -/
def outK (b : Fin 16) (d : Fin 128) : EReal :=
  ∑ l : Fin 2048, ((∑ j : Fin 4, ∑ r : Fin 512, wt X b (tileRow j r) l) * invL) * X b l d

/-- First result, contraction first: (∑_m ∑_l W[m,l] · X[l,d]) / 2048. -/
def outR (b : Fin 16) (d : Fin 128) : EReal :=
  Ideal.div (∑ m : Fin 2048, ∑ l : Fin 2048, wt X b m l * X b l d) lenL

/-- Second result: (∑_l W[m,l]) / 2048. -/
def attnR (b : Fin 16) (m : Fin 2048) : EReal :=
  Ideal.div (∑ l : Fin 2048, wt X b m l) lenL

end Cert.AttnSpec

end
-- ==== Proof.RefIsSpec.lean ====
/-
  The reference program computes the specification.

  Write X[b,l,d] = input[b,l,d] · mask[b,l]. The reference program forms, in this order: X; the scores
  T[b,l,m] = ∑_d X[b,l,d] · X[b,m,d]; the maximum over l of T[b,l,m], started from the word of −∞, and the maximum of
  that word with it once more; the shifted exponentials; their sums over l; the quotients; the contraction
  ∑_l W · X; its sum over m divided by the word of 2048; and the sum over l of the quotients divided by the same word.
  Each stage is identified here with the specification's function of the same name at explicit coordinates. The
  scores are symmetric in the two row indices up to the order of the factors inside the sum, which is the one
  place where commutativity of the product is used; the second maximum with −∞ is absorbed because the running
  maximum already starts from that word; the sums start from the zero word, which is 0.
-/
import proofs.«136351_j42082089566246_2_alg».proof.Proof.Gen.ReferenceIdeal.Read
import proofs.«136351_j42082089566246_2_alg».proof.Proof.Spec
import Idealize.ShloMosaic.PureOps.Reduce
import Idealize.ShloMosaic.PureOps.Ideal
import Idealize.ShloMosaic.PureOps.Ideal.Laws
import Idealize.ShloMosaic.Lib.ValueIdx

noncomputable section

namespace Cert.RefSide

open Idealize.ShloMosaic Idealize.ShloMosaic.ValueIdx Idealize.SL.Sem
open Cert.ReferenceIdeal Cert.ReferenceIdeal.Gen Cert.ReferenceIdeal.Read Cert.AttnSpec

variable (x0 : (⟨S16x2048x128, .f32⟩ : BufTy).Contents (Elt Ideal)) (x1 : (⟨S16x2048, .f32⟩ : BufTy).Contents (Elt Ideal))

/-- The masked input as the specification reads it. -/
abbrev X : Fin 16 → Fin 2048 → Fin 128 → EReal := xm (arr3 x0) (arr2 x1)

/-- The masked input: the product of the input entry and the mask entry of its row. -/
theorem v2_at (b : Fin 16) (l : Fin 2048) (d : Fin 128) :
    val_main_v2 (F := Ideal) x0 x1 (ix3 b l d) = X x0 x1 b l d := by
  have e : idx_main_v0 (idx_main_v1 (ix3 b l d)) = ix2 b l :=
    funext fun a => Fin.ext (by match a with | ⟨0, _⟩ => rfl | ⟨1, _⟩ => rfl)
  rw [val_main_v2_apply, val_main_v1_apply, val_main_v0_apply, e]
  rfl

/-- The scores: entry (b, l, m) is the inner product of rows l and m, which is the score of (m, l) with the
    factors in the other order. -/
theorem v3_at (b : Fin 16) (l m : Fin 2048) :
    val_main_v3 (F := Ideal) x0 x1 (ix3 b l m) = sc (X x0 x1) b m l := by
  rw [val_main_v3_apply]
  unfold sc
  refine Finset.sum_congr rfl fun k _ => ?_
  have el : lidx_main_v3 (ix3 b l m) k = ix3 b l k :=
    funext fun a => Fin.ext (by match a with | ⟨0, _⟩ => rfl | ⟨1, _⟩ => rfl | ⟨2, _⟩ => rfl)
  have er : ridx_main_v3 (ix3 b l m) k = ix3 b m k :=
    funext fun a => Fin.ext (by match a with | ⟨0, _⟩ => rfl | ⟨1, _⟩ => rfl | ⟨2, _⟩ => rfl)
  rw [el, er, v2_at, v2_at, mul_comm]

/-- The one-axis reduction over the row index l of a 16 × 2048 × 2048 array. -/
theorem red_l : S16x2048x2048.Reduces [1] S16x2048 := by decide

/-- Putting coordinate k back on the reduced axis of (b, m) gives (b, k, m). -/
theorem lift_l (b : Fin 16) (m : Fin 2048) (k : Fin (S16x2048x2048.size 1)) :
    red_l.lift (ix2 b m) k = ix3 b (⟨k.val, k.isLt⟩ : Fin 2048) m :=
  funext fun a => Fin.ext (by match a with | ⟨0, _⟩ => rfl | ⟨1, _⟩ => rfl | ⟨2, _⟩ => rfl)

/-- The running maximum over l of the scores, started from the word of −∞: the specification's row maximum. -/
theorem v4_at (b : Fin 16) (m : Fin 2048) :
    val_main_v4 (F := Ideal) x0 x1 (ix2 b m) = rmax (X x0 x1) b m := by
  unfold val_main_v4
  rw [Host.reduce_eq_fold_single FloatOps.maximumf _ _ reducesTo_S16x2048x2048_S16x2048_d1 red_l h_S_]
  have hf : (val_main_v3 (F := Ideal) x0 x1 ∘ red_l.lift (ix2 b m)) = fun l : Fin 2048 => sc (X x0 x1) b m l :=
    funext fun k => by
      show val_main_v3 (F := Ideal) x0 x1 (red_l.lift (ix2 b m) k) = _
      rw [lift_l, v3_at]
      rfl
  rw [hf]
  rfl

/-- The maximum of the word of −∞ with the row maximum is the row maximum: the running maximum is at least its
    starting value. -/
theorem v6_at (b : Fin 16) (m : Fin 2048) :
    val_main_v6 (F := Ideal) x0 x1 (ix2 b m) = rmax (X x0 x1) b m := by
  rw [val_main_v6_apply, val_main_v5_apply, val_main_cst_0_apply, v4_at, Ideal.maximumf_def, Ideal.ofBits_def]
  refine max_eq_right ?_
  unfold rmax
  exact (Finset.le_fold_max _).2 (Or.inl le_rfl)

/-- The row maximum spread over the row index: entry (b, l, m) is the maximum of row m. -/
theorem v8_at (b : Fin 16) (l m : Fin 2048) :
    val_main_v8 (F := Ideal) x0 x1 (ix3 b l m) = rmax (X x0 x1) b m := by
  have e : idx_main_v7 (idx_main_v8 (ix3 b l m)) = ix2 b m :=
    funext fun a => Fin.ext (by match a with | ⟨0, _⟩ => rfl | ⟨1, _⟩ => rfl)
  rw [val_main_v8_apply, val_main_v7_apply, e, v6_at]

/-- The shifted exponential of a score. -/
theorem v10_at (b : Fin 16) (l m : Fin 2048) :
    val_main_v10 (F := Ideal) x0 x1 (ix3 b l m) = ex (X x0 x1) b m l := by
  rw [val_main_v10_apply, val_main_v9_apply, v3_at, v8_at, Ideal.subf_def, Ideal.hostUnary_exp_def]
  rfl

/-- The normalizer of row m: the sum over l of the shifted exponentials, started from the zero word. -/
theorem v11_at (b : Fin 16) (m : Fin 2048) :
    val_main_v11 (F := Ideal) x0 x1 (ix2 b m) = zs (X x0 x1) b m := by
  rw [val_main_v11_apply, val_main_cst_1_apply, Ideal.ofBits_def, Ideal.ofBits_zero_f32, zero_add]
  unfold zs
  refine Finset.sum_congr rfl fun k _ => ?_
  have e : idx_main_v11 (ix2 b m) k = ix3 b k m :=
    funext fun a => Fin.ext (by match a with | ⟨0, _⟩ => rfl | ⟨1, _⟩ => rfl | ⟨2, _⟩ => rfl)
  rw [e, v10_at]

/-- The normalizer spread over the row index. -/
theorem v13_at (b : Fin 16) (l m : Fin 2048) :
    val_main_v13 (F := Ideal) x0 x1 (ix3 b l m) = zs (X x0 x1) b m := by
  have e : idx_main_v12 (idx_main_v13 (ix3 b l m)) = ix2 b m :=
    funext fun a => Fin.ext (by match a with | ⟨0, _⟩ => rfl | ⟨1, _⟩ => rfl)
  rw [val_main_v13_apply, val_main_v12_apply, e, v11_at]

/-- The softmax weight: entry (b, l, m) is the weight of column l in row m. -/
theorem v14_at (b : Fin 16) (l m : Fin 2048) :
    val_main_v14 (F := Ideal) x0 x1 (ix3 b l m) = wt (X x0 x1) b m l := by
  rw [val_main_v14_apply, v10_at, v13_at, Ideal.hostDivf_def]
  rfl

/-- The contraction of the weights of row m with the masked input over l. -/
theorem v15_at (b : Fin 16) (m : Fin 2048) (d : Fin 128) :
    val_main_v15 (F := Ideal) x0 x1 (ix3 b m d) = ∑ l : Fin 2048, wt (X x0 x1) b m l * X x0 x1 b l d := by
  rw [val_main_v15_apply]
  refine Finset.sum_congr rfl fun k _ => ?_
  have el : lidx_main_v15 (ix3 b m d) k = ix3 b k m :=
    funext fun a => Fin.ext (by match a with | ⟨0, _⟩ => rfl | ⟨1, _⟩ => rfl | ⟨2, _⟩ => rfl)
  have er : ridx_main_v15 (ix3 b m d) k = ix3 b k d :=
    funext fun a => Fin.ext (by match a with | ⟨0, _⟩ => rfl | ⟨1, _⟩ => rfl | ⟨2, _⟩ => rfl)
  rw [el, er, v14_at, v2_at]

/-- Its sum over the rows m, started from the zero word. -/
theorem v16_at (b : Fin 16) (d : Fin 128) :
    val_main_v16 (F := Ideal) x0 x1 (ix2 b d)
      = ∑ m : Fin 2048, ∑ l : Fin 2048, wt (X x0 x1) b m l * X x0 x1 b l d := by
  rw [val_main_v16_apply, val_main_cst_2_apply, Ideal.ofBits_def, Ideal.ofBits_zero_f32, zero_add]
  refine Finset.sum_congr rfl fun k _ => ?_
  have e : idx_main_v16 (ix2 b d) k = ix3 b k d :=
    funext fun a => Fin.ext (by match a with | ⟨0, _⟩ => rfl | ⟨1, _⟩ => rfl | ⟨2, _⟩ => rfl)
  rw [e, v15_at]

/-- The sum over l of the weights of row m, started from the zero word. -/
theorem v20_at (b : Fin 16) (m : Fin 2048) :
    val_main_v20 (F := Ideal) x0 x1 (ix2 b m) = ∑ l : Fin 2048, wt (X x0 x1) b m l := by
  rw [val_main_v20_apply, val_main_cst_4_apply, Ideal.ofBits_def, Ideal.ofBits_zero_f32, zero_add]
  refine Finset.sum_congr rfl fun k _ => ?_
  have e : idx_main_v20 (ix2 b m) k = ix3 b k m :=
    funext fun a => Fin.ext (by match a with | ⟨0, _⟩ => rfl | ⟨1, _⟩ => rfl | ⟨2, _⟩ => rfl)
  rw [e, v14_at]

/-- The first result of the reference program is the specification's contraction-first mean. -/
theorem ref_out (i : S16x1x128.Idx) :
    val_main_v19 (F := Ideal) x0 x1 i = outR (xm (arr3 x0) (arr2 x1)) (i 0) (i 2) := by
  have e : idx_main_v17 i = ix2 (⟨(i 0).val, (i 0).isLt⟩ : Fin 16) (⟨(i 2).val, (i 2).isLt⟩ : Fin 128) :=
    funext fun a => Fin.ext (by match a with | ⟨0, _⟩ => rfl | ⟨1, _⟩ => rfl)
  rw [val_main_v19_apply, val_main_v17_apply, val_main_v18_apply, val_main_cst_3_apply, e, v16_at,
    Ideal.hostDivf_def, Ideal.ofBits_def]
  rfl

/-- The second result of the reference program is the specification's mean of the weights over l. -/
theorem ref_attn (i : S16x2048.Idx) :
    val_main_v22 (F := Ideal) x0 x1 i = attnR (xm (arr3 x0) (arr2 x1)) (i 0) (i 1) := by
  have e : i = ix2 (⟨(i 0).val, (i 0).isLt⟩ : Fin 16) (⟨(i 1).val, (i 1).isLt⟩ : Fin 2048) :=
    funext fun a => Fin.ext (by match a with | ⟨0, _⟩ => rfl | ⟨1, _⟩ => rfl)
  rw [val_main_v22_apply, val_main_v21_apply, val_main_cst_5_apply,
    congrArg (val_main_v20 (F := Ideal) x0 x1) e, v20_at,
    Ideal.hostDivf_def, Ideal.ofBits_def]
  rfl

end Cert.RefSide

end
-- ==== Proof.SoftmaxAlg.lean ====
/-
  The algebra behind the two results, over the reals.

  When every entry of the masked input X is a real number, every score S[m,l] = ∑_d X[m,d]·X[l,d] is a
  real; the running maximum of a row (started from −∞, over 2048 > 0 reals) is a real, because it lies
  above the first score and below +∞; so every shifted exponential exp (S[m,l] − max) is a positive
  real, the normalizer Z[m] = ∑_l exp (S[m,l] − max) is a positive real, and the softmax weight
  W[m,l] = exp (S[m,l] − max) / Z[m] is a real. The weights of a row sum to Z[m] / Z[m] = 1.

  Hence the mean of a row of weights is 1/2048, and the two ways of forming the first result agree:
  ∑_l ((∑_tiles ∑_rows W[row,l]) · 2⁻¹¹) · X[l,d] = (∑_m ∑_l W[m,l] · X[l,d]) / 2048,
  by reading the four tiles of 512 rows as all 2048 rows, exchanging the two sums and distributing.
-/
import proofs.«136351_j42082089566246_2_alg».proof.Proof.Spec
import Idealize.ShloMosaic.PureOps.Ideal.Laws
import Mathlib.Data.EReal.Operations
import Mathlib.Data.EReal.Inv
import Mathlib.Data.Finset.Fold
import Mathlib.Algebra.BigOperators.Fin
import Mathlib.Analysis.SpecialFunctions.Exp

noncomputable section

namespace Cert.AttnAlg

open Cert.AttnSpec Idealize.ShloMosaic

/-! ### The three constants -/

/-- The starting value of the running maximum is −∞. -/
theorem negInf_eq_bot : negInf = ⊥ := by
  simp [negInf, Ideal.ofBits, Ideal.ieee]

/-- The scaling constant is the real 1/2048. -/
theorem invL_eq : invL = ((1 / 2048 : ℝ) : EReal) := by
  simp [invL, Ideal.ofBits, Ideal.ieee, -EReal.coe_mul]; norm_num

/-- The divisor is the real 2048. -/
theorem lenL_eq : lenL = ((2048 : ℝ) : EReal) := by
  simp [lenL, Ideal.ofBits, Ideal.ieee, -EReal.coe_mul]; norm_num

/-! ### Coercion through finite sums -/

/-- The inclusion of the reals in the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### Four tiles of 512 rows are all 2048 rows -/

/-- A pair (tile, row in the tile) names exactly one of the 2048 rows. -/
def tileEquiv : Fin 4 × Fin 512 ≃ Fin 2048 where
  toFun p := tileRow p.1 p.2
  invFun m := (⟨m.val / 512, by omega⟩, ⟨m.val % 512, by omega⟩)
  left_inv p := by
    rcases p with ⟨⟨j, hj⟩, ⟨r, hr⟩⟩
    simp only [tileRow, Prod.mk.injEq, Fin.mk.injEq]
    constructor <;> omega
  right_inv m := by
    apply Fin.ext
    simp only [tileRow]
    omega

/-- Summing over the tiles and then over the rows of a tile is summing over all rows. -/
theorem sum_tiles {M : Type*} [AddCommMonoid M] (f : Fin 2048 → M) :
    ∑ j : Fin 4, ∑ r : Fin 512, f (tileRow j r) = ∑ m : Fin 2048, f m := by
  rw [← Fintype.sum_prod_type' (fun j r => f (tileRow j r))]
  exact Fintype.sum_equiv tileEquiv _ _ (fun _ => rfl)

/-! ### The real mirrors of the scores, maxima, exponentials, normalizers and weights -/

variable (Xr : Fin 16 → Fin 2048 → Fin 128 → ℝ)

/-- A real array read as an array of extended reals. -/
def up : Fin 16 → Fin 2048 → Fin 128 → EReal := fun b l d => (Xr b l d : EReal)

/-- The real score of rows m and l. -/
def scR (b : Fin 16) (m l : Fin 2048) : ℝ := ∑ d : Fin 128, Xr b m d * Xr b l d

/-- The score of a real array is the real score. -/
theorem sc_up (b : Fin 16) (m l : Fin 2048) : sc (up Xr) b m l = (scR Xr b m l : EReal) := by
  unfold sc scR up
  rw [coe_finset_sum]
  exact Finset.sum_congr rfl (fun d _ => (EReal.coe_mul _ _).symm)

/-- The largest score of a row of a real array is not +∞: −∞ and every real score lie below +∞. -/
theorem rmax_up_ne_top (b : Fin 16) (m : Fin 2048) : rmax (up Xr) b m ≠ ⊤ := by
  apply ne_of_lt
  unfold rmax
  rw [Finset.fold_max_lt]
  refine ⟨?_, fun l _ => ?_⟩
  · rw [negInf_eq_bot]; exact bot_lt_top
  · rw [sc_up]; exact EReal.coe_lt_top _

/-- The largest score of a row of a real array is not −∞: it lies above the first score, a real. -/
theorem rmax_up_ne_bot (b : Fin 16) (m : Fin 2048) : rmax (up Xr) b m ≠ ⊥ := by
  have h : ((scR Xr b m ⟨0, by norm_num⟩ : ℝ) : EReal) ≤ rmax (up Xr) b m := by
    unfold rmax
    rw [Finset.le_fold_max]
    exact Or.inr ⟨⟨0, by norm_num⟩, Finset.mem_univ _, le_of_eq (sc_up Xr b m _).symm⟩
  exact ne_of_gt (lt_of_lt_of_le (EReal.bot_lt_coe _) h)

/-- The real largest score of a row. -/
def rmaxR (b : Fin 16) (m : Fin 2048) : ℝ := (rmax (up Xr) b m).toReal

/-- The largest score of a row of a real array is a real. -/
theorem rmax_up (b : Fin 16) (m : Fin 2048) : rmax (up Xr) b m = (rmaxR Xr b m : EReal) :=
  (EReal.coe_toReal (rmax_up_ne_top Xr b m) (rmax_up_ne_bot Xr b m)).symm

/-- The real shifted exponential. -/
def exR (b : Fin 16) (m l : Fin 2048) : ℝ := Real.exp (scR Xr b m l - rmaxR Xr b m)

/-- The shifted exponential of a real array is the real one. -/
theorem ex_up (b : Fin 16) (m l : Fin 2048) : ex (up Xr) b m l = (exR Xr b m l : EReal) := by
  unfold ex exR
  rw [sc_up, rmax_up, ← EReal.coe_sub, Ideal.exp_coe]

/-- A shifted exponential is positive. -/
theorem exR_pos (b : Fin 16) (m l : Fin 2048) : 0 < exR Xr b m l := Real.exp_pos _

/-- The real normalizer of a row. -/
def zsR (b : Fin 16) (m : Fin 2048) : ℝ := ∑ l : Fin 2048, exR Xr b m l

/-- The normalizer of a real array is the real one. -/
theorem zs_up (b : Fin 16) (m : Fin 2048) : zs (up Xr) b m = (zsR Xr b m : EReal) := by
  unfold zs zsR
  rw [coe_finset_sum]
  exact Finset.sum_congr rfl (fun l _ => ex_up Xr b m l)

/-- A normalizer, a sum of 2048 positive reals, is positive. -/
theorem zsR_pos (b : Fin 16) (m : Fin 2048) : 0 < zsR Xr b m :=
  Finset.sum_pos (fun l _ => exR_pos Xr b m l) ⟨⟨0, by norm_num⟩, Finset.mem_univ _⟩

/-- The real softmax weight. -/
def wtR (b : Fin 16) (m l : Fin 2048) : ℝ := exR Xr b m l / zsR Xr b m

/-- The softmax weight of a real array is the real one. -/
theorem wt_up (b : Fin 16) (m l : Fin 2048) : wt (up Xr) b m l = (wtR Xr b m l : EReal) := by
  unfold wt wtR
  rw [ex_up, zs_up, Ideal.div_coe (ne_of_gt (zsR_pos Xr b m)), ← EReal.coe_mul, mul_one_div]

/-- The weights of a row sum to one. -/
theorem sum_wtR (b : Fin 16) (m : Fin 2048) : ∑ l : Fin 2048, wtR Xr b m l = 1 := by
  unfold wtR
  rw [← Finset.sum_div]
  exact div_self (ne_of_gt (zsR_pos Xr b m))

/-! ### The mean of a row of weights -/

/-- The weights of a row of a real array sum to the real one. -/
theorem sum_wt_up (b : Fin 16) (m : Fin 2048) :
    ∑ l : Fin 2048, wt (up Xr) b m l = ((1 : ℝ) : EReal) := by
  rw [← sum_wtR Xr b m, coe_finset_sum]
  exact Finset.sum_congr rfl (fun l _ => wt_up Xr b m l)

/-- For a real array the mean over a row of weights is the constant 2⁻¹¹. -/
theorem attnR_up (b : Fin 16) (m : Fin 2048) : attnR (up Xr) b m = invL := by
  unfold attnR
  rw [sum_wt_up, lenL_eq, Ideal.div_coe (by norm_num), invL_eq, ← EReal.coe_mul, one_mul]

/-! ### The two ways of forming the first result -/

/-- Column sums first, in the reals. -/
def outKR (b : Fin 16) (d : Fin 128) : ℝ :=
  ∑ l : Fin 2048, ((∑ m : Fin 2048, wtR Xr b m l) * (1 / 2048)) * Xr b l d

/-- Contraction first, in the reals. -/
def outRR (b : Fin 16) (d : Fin 128) : ℝ :=
  (∑ m : Fin 2048, ∑ l : Fin 2048, wtR Xr b m l * Xr b l d) * (1 / 2048)

/-- The column sum of the weights of a real array, taken tile by tile, is the real column sum. -/
theorem colsum_wt_up (b : Fin 16) (l : Fin 2048) :
    ∑ j : Fin 4, ∑ r : Fin 512, wt (up Xr) b (tileRow j r) l
      = ((∑ m : Fin 2048, wtR Xr b m l : ℝ) : EReal) := by
  rw [sum_tiles (fun m => wt (up Xr) b m l), coe_finset_sum]
  exact Finset.sum_congr rfl (fun m _ => wt_up Xr b m l)

/-- The first result of a real array, column sums first, is the real one. -/
theorem outK_up (b : Fin 16) (d : Fin 128) : outK (up Xr) b d = (outKR Xr b d : EReal) := by
  unfold outK outKR
  rw [coe_finset_sum]
  refine Finset.sum_congr rfl (fun l _ => ?_)
  rw [colsum_wt_up, invL_eq, EReal.coe_mul, EReal.coe_mul]
  rfl

/-- The first result of a real array, contraction first, is the real one. -/
theorem outR_up (b : Fin 16) (d : Fin 128) : outR (up Xr) b d = (outRR Xr b d : EReal) := by
  unfold outR outRR
  have h : ∑ m : Fin 2048, ∑ l : Fin 2048, wt (up Xr) b m l * up Xr b l d
      = ((∑ m : Fin 2048, ∑ l : Fin 2048, wtR Xr b m l * Xr b l d : ℝ) : EReal) := by
    rw [coe_finset_sum]
    refine Finset.sum_congr rfl (fun m _ => ?_)
    rw [coe_finset_sum]
    refine Finset.sum_congr rfl (fun l _ => ?_)
    rw [wt_up, EReal.coe_mul]
    rfl
  rw [h, lenL_eq, Ideal.div_coe (by norm_num), ← EReal.coe_mul]

/-- In the reals the two ways agree: exchange the sums over m and l and distribute. -/
theorem outKR_eq_outRR (b : Fin 16) (d : Fin 128) : outKR Xr b d = outRR Xr b d := by
  unfold outKR outRR
  rw [Finset.sum_comm, Finset.sum_mul]
  refine Finset.sum_congr rfl (fun l _ => ?_)
  rw [← Finset.sum_mul]
  ring

/-! ### The two statements for a masked input with real entries -/

/-- A masked input whose entries and mask entries are reals is a real array. -/
theorem xm_eq_up (x : Fin 16 → Fin 2048 → Fin 128 → EReal) (mk : Fin 16 → Fin 2048 → EReal)
    (hx : ∀ b l d, ∃ r : ℝ, x b l d = (r : EReal)) (hm : ∀ b l, ∃ r : ℝ, mk b l = (r : EReal)) :
    ∃ Yr : Fin 16 → Fin 2048 → Fin 128 → ℝ, xm x mk = up Yr := by
  choose xr hxr using hx
  choose mr hmr using hm
  refine ⟨fun b l d => xr b l d * mr b l, ?_⟩
  funext b l d
  unfold xm up
  rw [hxr, hmr, EReal.coe_mul]

/-- The two ways of forming the first result agree on a masked input with real entries. -/
theorem outK_eq_outR (x : Fin 16 → Fin 2048 → Fin 128 → EReal) (mk : Fin 16 → Fin 2048 → EReal)
    (hx : ∀ b l d, ∃ r : ℝ, x b l d = (r : EReal)) (hm : ∀ b l, ∃ r : ℝ, mk b l = (r : EReal))
    (b : Fin 16) (d : Fin 128) :
    outK (xm x mk) b d = outR (xm x mk) b d := by
  obtain ⟨Yr, hY⟩ := xm_eq_up x mk hx hm
  rw [hY, outK_up, outR_up, outKR_eq_outRR]

/-- The mean over a row of weights of a masked input with real entries is the constant 2⁻¹¹. -/
theorem attnR_eq_invL (x : Fin 16 → Fin 2048 → Fin 128 → EReal) (mk : Fin 16 → Fin 2048 → EReal)
    (hx : ∀ b l d, ∃ r : ℝ, x b l d = (r : EReal)) (hm : ∀ b l, ∃ r : ℝ, mk b l = (r : EReal))
    (b : Fin 16) (m : Fin 2048) :
    attnR (xm x mk) b m = invL := by
  obtain ⟨Yr, hY⟩ := xm_eq_up x mk hx hm
  rw [hY, attnR_up]

end Cert.AttnAlg

end
-- ==== Proof.Finite.lean ====
/-
  Finiteness of the two inputs, read off the precondition.

  The precondition is the conjunction of two statements "every entry x of the array has |x| < +∞",
  one per input array, each an "and" over all entries of the entrywise comparison |x| < +∞, where
  |x| = max x (−x) over the extended reals and +∞ is what the word 0x7F800000 denotes. An extended real
  with max x (−x) < ⊤ is neither ⊤ (then max x (−x) = ⊤) nor ⊥ (then −x = ⊤), so it is a real number.
-/
import proofs.«136351_j42082089566246_2_alg».proof.Pre_finite_inputs
import proofs.«136351_j42082089566246_2_alg».proof.Proof.Spec
import Idealize.ShloMosaic.Lib.ReduceAll
import Idealize.ShloMosaic.Lib.ValueIdx
import Idealize.ShloMosaic.PureOps.Ideal

noncomputable section

namespace Cert.FiniteIn

open Idealize.ShloMosaic Cert.Pre_finite_inputs

/-- The shape with no axes has exactly one index. -/
instance : Subsingleton S_.Idx := ⟨fun a b => funext fun d => d.elim0⟩

/-- An extended real x with max x (−x) < ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The word 0x7F800000 denotes +∞. -/
theorem inf_word : Ideal.ofBits .f32 0x7F800000#32 = (⊤ : EReal) := by simp [Ideal.ofBits, Ideal.ieee]

/-- The entrywise comparison |x| < +∞ coming out true makes x a real number. -/
theorem real_of_cmp (x : EReal)
    (h : Ideal.cmp .olt (max x (-x)) (Ideal.ofBits .f32 0x7F800000#32) = 1#1) : ∃ r : ℝ, x = (r : EReal) := by
  refine real_of_abs_lt_top x ?_
  rw [inf_word] at h
  by_contra hn
  simp [Ideal.cmp, hn] at h

theorem finite_of_pre [Cert.Pre_finite_inputs.Facts]
    (a0 : FVec Ideal Cert.Pre_finite_inputs.S16x2048x128 .f32) (a1 : FVec Ideal Cert.Pre_finite_inputs.S16x2048 .f32)
    (h : Cert.Pre_finite_inputs.fn (F := Ideal) a0 a1 = fun _ => 1#1) :
    (∀ i, ∃ r : ℝ, a0 i = (r : EReal)) ∧ (∀ i, ∃ r : ℝ, a1 i = (r : EReal)) := by
  have e := congrFun h ValueIdx.ix0
  dsimp only [Cert.Pre_finite_inputs.fn, andi] at e
  obtain ⟨e0, e1⟩ := IntOp.andi_eq_one.1 e
  refine ⟨fun i => ?_, fun i => ?_⟩
  · have := Host.reduce_andi_all _ _ _ _ _ e0 i
    exact real_of_cmp (a0 i) this
  · have := Host.reduce_andi_all _ _ _ _ _ e1 i
    exact real_of_cmp (a1 i) this

/-- The same, for the arrays read by their coordinates. -/
theorem finite_arr_of_pre [Cert.Pre_finite_inputs.Facts]
    (a0 : FVec Ideal Cert.Pre_finite_inputs.S16x2048x128 .f32) (a1 : FVec Ideal Cert.Pre_finite_inputs.S16x2048 .f32)
    (h : Cert.Pre_finite_inputs.fn (F := Ideal) a0 a1 = fun _ => 1#1) :
    (∀ b l d, ∃ r : ℝ, Cert.AttnSpec.arr3 a0 b l d = (r : EReal))
      ∧ (∀ b l, ∃ r : ℝ, Cert.AttnSpec.arr2 a1 b l = (r : EReal)) :=
  ⟨fun b l d => (finite_of_pre a0 a1 h).1 (ValueIdx.ix3 b l d), fun b l => (finite_of_pre a0 a1 h).2 (ValueIdx.ix2 b l)⟩

end Cert.FiniteIn

end
-- ==== Proof.Claims.lean ====
/-
  The five claims, assembled.

  Write X[b,l,d] = input[b,l,d] · mask[b,l] and let W be the row-softmax of the Gram matrix of X. Both programs
  run to the end with their arguments unchanged. At the exact reading the kernel leaves
  ∑_l ((∑_m W[m,l]) · 2⁻¹¹) · X[l,d] and the constant 2⁻¹¹ in its two results; the reference leaves
  (∑_m ∑_l W[m,l] · X[l,d]) / 2048 and (∑_l W[m,l]) / 2048. The input and the mask are finite by the
  precondition, so every entry of X is a real number, every row of W is a family of positive reals of sum 1,
  the two orders of summation agree and division by 2048 is multiplication by 2⁻¹¹: the results are equal
  entry by entry. The kernel's run is taken here as a hypothesis with exactly that first description.
-/
import proofs.«136351_j42082089566246_2_alg».proof.Defs
import proofs.«136351_j42082089566246_2_alg».proof.Proof.Gen.Kernel.Frame
import proofs.«136351_j42082089566246_2_alg».proof.Proof.Gen.KernelIdeal.Frame
import proofs.«136351_j42082089566246_2_alg».proof.Proof.Gen.ReferenceIdeal.Run
import proofs.«136351_j42082089566246_2_alg».proof.Proof.Gen.ReferenceIdeal.Read
import proofs.«136351_j42082089566246_2_alg».proof.Proof.Gen.Pre_finite_inputs
import proofs.«136351_j42082089566246_2_alg».proof.Proof.Spec
import proofs.«136351_j42082089566246_2_alg».proof.Proof.RefIsSpec
import proofs.«136351_j42082089566246_2_alg».proof.Proof.SoftmaxAlg
import proofs.«136351_j42082089566246_2_alg».proof.Proof.Finite

noncomputable section

namespace Cert.Proof.Claims

open Idealize.ShloMosaic Idealize.ShloMosaic.TcCoe Idealize.SL.Sem

/-- The kernel at its bit-level reading runs and leaves its arguments unchanged. -/
theorem frame_k : Cert.frame_Kernel := fun m ρ _ => Cert.Kernel.Gen.frame m ρ

/-- The kernel at the exact reading runs and leaves its arguments unchanged. -/
theorem frame_ki : Cert.frame_KernelIdeal := fun m ρ _ => Cert.KernelIdeal.Gen.frame m ρ

/-- The reference at the exact reading runs and leaves its arguments unchanged. -/
theorem frame_ri : Cert.frame_ReferenceIdeal := fun m ρ _ =>
  (θ_run Cert.ReferenceIdeal.defs _ _).mono (fun _ h c => (h c).2.2) (Cert.ReferenceIdeal.Value.run (F := Ideal) m ρ)

/-- The exact reading of the kernel has the kernel's own operations, one for one. -/
theorem preserves : Cert.preserves_Kernel_KernelIdeal := trivial

/-- Given that the kernel's run ends with the column-sums-first form of the first result and the constant 2⁻¹¹ in
    the second, the two programs end with equal results from arguments that agree: the reference's results are the
    specification's contraction-first mean and mean of the weights, and on finite inputs these are the kernel's. -/
theorem algebraic_of
    (hk : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread _ Cert.KernelIdeal.τ).loc Cert.KernelIdeal.main_v1)
              = (fun i => Cert.AttnSpec.outK (Cert.AttnSpec.xm (Cert.AttnSpec.arr3 (m ((c.tc : Thread _ Cert.KernelIdeal.τ).loc Cert.KernelIdeal.main_arg0)))
                  (Cert.AttnSpec.arr2 (m ((c.tc : Thread _ Cert.KernelIdeal.τ).loc Cert.KernelIdeal.main_arg1)))) (i 0) (i 2))
          ∧ r.2.mem ((c.tc : Thread _ Cert.KernelIdeal.τ).loc Cert.KernelIdeal.main_v2) = (fun _ => Cert.AttnSpec.invL)
          ∧ r.2.mem ((c.tc : Thread _ Cert.KernelIdeal.τ).loc Cert.KernelIdeal.main_arg0) = m ((c.tc : Thread _ Cert.KernelIdeal.τ).loc Cert.KernelIdeal.main_arg0)
          ∧ r.2.mem ((c.tc : Thread _ Cert.KernelIdeal.τ).loc Cert.KernelIdeal.main_arg1) = m ((c.tc : Thread _ Cert.KernelIdeal.τ).loc Cert.KernelIdeal.main_arg1))) :
    Cert.algebraic_KernelIdeal_ReferenceIdeal := by
  intro m ρ m' ρ' hpre hagree
  refine ⟨_, _, hk m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨hx, hm⟩ := Cert.FiniteIn.finite_arr_of_pre _ _ (hpre c)
    rw [Cert.ReferenceIdeal.Read.val_main_v19_eq]
    funext i
    rw [Cert.RefSide.ref_out, (hagree c).1, (hagree c).2]
    exact (Cert.AttnAlg.outK_eq_outR _ _ hx hm (i 0) (i 2)).symm
  · obtain ⟨hx, hm⟩ := Cert.FiniteIn.finite_arr_of_pre _ _ (hpre c)
    rw [Cert.ReferenceIdeal.Read.val_main_v22_eq]
    funext i
    rw [Cert.RefSide.ref_attn, (hagree c).1, (hagree c).2]
    exact Cert.AttnAlg.attnR_eq_invL _ _ hx hm (i 0) (i 1)

end Cert.Proof.Claims

end
-- ==== Proof.Pieces.lean ====
/-
  What each control case of the kernel body leaves behind, as values.

  The body keeps two buffers alive across the four steps j = 0, 1, 2, 3 of one batch: the masked
  input X (2048 × 128), written once at j = 0, and the running column sums of the softmax weights
  (1 × 2048), reset at j = 0 and increased at every step by the column sums of the weights of rows
  512·j … 512·j + 511. At j = 3 the output block (1 × 1 × 128) is computed from both.
  Each lemma below says which pure function of the loaded values a case stores.
-/
import proofs.«136351_j42082089566246_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Rows 512·j … 512·j + 511 of a 2048-row matrix, j the second grid coordinate. -/
abbrev tile (i : grid0.Coords) (xs0 : Vec F S2048x128 .bf16) : Vec F S512x128 .bf16 :=
  View.ld xs0 (Rect.unit (s := S2048x128) (k0_off1 i) S512x128.size (k0_off1_inb i))

/-- First step of a batch: the masked input is stored. -/
theorem sA0 (c : Dev nD) (i : grid0.Coords) (arg2 : Memref sig .tc .vmem S1x2048x128 .f32) (harg2 : arg2.IsWhole) (arg3 : Memref sig .tc .vmem S1x2048x1 .f32) (harg3 : arg3.IsWhole) (arg4 : Memref sig .tc .vmem S1x1x128 .f32) (harg4 : arg4.IsWhole) (arg5 : Memref sig .tc .vmem S2048x128 .bf16) (harg5 : arg5.IsWhole) (arg6 : Memref sig .tc .vmem S1x2048 .f32) (harg6 : arg6.IsWhole) (hc0 : cond0_0 i) (hc1 : ¬cond0_1 i)
    (x0 : Vec F S1x2048x128 .f32) (x1 : Vec F S1x2048x1 .f32) :
    sout0_A_0 c i arg2 harg2 arg3 harg3 arg4 harg4 arg5 harg5 arg6 harg6 hc0 hc1 x0 x1 = k0_pay1 x0 x1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_unit_zero hz2]
  simp only [View.readAt_eq_ld, harg2.read_unread, harg3.read_unread, View.ld_unit_zero (S := S1x2048x128) hz3, View.ld_unit_zero (S := S1x2048x1) hz3]

/-- First step of a batch: the column sums are reset to zero, then increased by the first tile's. -/
theorem sA1 (c : Dev nD) (i : grid0.Coords) (arg2 : Memref sig .tc .vmem S1x2048x128 .f32) (harg2 : arg2.IsWhole) (arg3 : Memref sig .tc .vmem S1x2048x1 .f32) (harg3 : arg3.IsWhole) (arg4 : Memref sig .tc .vmem S1x1x128 .f32) (harg4 : arg4.IsWhole) (arg5 : Memref sig .tc .vmem S2048x128 .bf16) (harg5 : arg5.IsWhole) (arg6 : Memref sig .tc .vmem S1x2048 .f32) (harg6 : arg6.IsWhole) (hc0 : cond0_0 i) (hc1 : ¬cond0_1 i)
    (x0 : Vec F S1x2048x128 .f32) (x1 : Vec F S1x2048x1 .f32) :
    sout0_A_1 c i arg2 harg2 arg3 harg3 arg4 harg4 arg5 harg5 arg6 harg6 hc0 hc1 x0 x1 = k0_pay3 (tile i (k0_pay1 x0 x1)) (k0_pay1 x0 x1) k0_pay2 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1x2048) hz2, View.readCov_unit_zero (S := S2048x128) _ hz2,
    View.readCov_unit_zero (S := S1x2048) _ hz2]
  simp only [View.readAt_eq_ld]
  rw [View.read_writes_eq_canon _ _ _ (fun y => ⟨_, List.mem_singleton_self _, View.mem_set_unit_zero hz2 inb_S2048x128_S2048x128_0_0 y⟩),
    View.canon_unit_zero hz2]
  simp only [harg2.read_unread, harg3.read_unread, View.ld_unit_zero (S := S1x2048x128) hz3, View.ld_unit_zero (S := S1x2048x1) hz3]
  rfl

/-- Middle steps: the column sums are increased by this tile's; the masked input is kept. -/
theorem sB1 (c : Dev nD) (i : grid0.Coords) (arg2 : Memref sig .tc .vmem S1x2048x128 .f32) (harg2 : arg2.IsWhole) (arg3 : Memref sig .tc .vmem S1x2048x1 .f32) (harg3 : arg3.IsWhole) (arg4 : Memref sig .tc .vmem S1x1x128 .f32) (harg4 : arg4.IsWhole) (arg5 : Memref sig .tc .vmem S2048x128 .bf16) (harg5 : arg5.IsWhole) (arg6 : Memref sig .tc .vmem S1x2048 .f32) (harg6 : arg6.IsWhole) (hc0 : ¬cond0_0 i) (hc1 : ¬cond0_1 i)
    (x0 : Vec F S1x2048x128 .f32) (x1 : Vec F S1x2048x1 .f32) (xs0 : Vec F S2048x128 .bf16) (xs1 : Vec F S1x2048 .f32) :
    sout0_B_1 c i arg2 harg2 arg3 harg3 arg4 harg4 arg5 harg5 arg6 harg6 hc0 hc1 x0 x1 xs0 xs1 = k0_pay3 (tile i xs0) xs0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  rw [View.canon_unit_zero hz2]
  simp only [View.readAt_eq_ld, harg5.read_unread, harg6.read_unread, View.ld_unit_zero (S := S2048x128) hz2, View.ld_unit_zero (S := S1x2048) hz2]

/-- Last step: the column sums are increased by the last tile's. -/
theorem sC1 (c : Dev nD) (i : grid0.Coords) (arg2 : Memref sig .tc .vmem S1x2048x128 .f32) (harg2 : arg2.IsWhole) (arg3 : Memref sig .tc .vmem S1x2048x1 .f32) (harg3 : arg3.IsWhole) (arg4 : Memref sig .tc .vmem S1x1x128 .f32) (harg4 : arg4.IsWhole) (arg5 : Memref sig .tc .vmem S2048x128 .bf16) (harg5 : arg5.IsWhole) (arg6 : Memref sig .tc .vmem S1x2048 .f32) (harg6 : arg6.IsWhole) (hc0 : ¬cond0_0 i) (hc1 : cond0_1 i)
    (x0 : Vec F S1x2048x128 .f32) (x1 : Vec F S1x2048x1 .f32) (xs0 : Vec F S2048x128 .bf16) (xs1 : Vec F S1x2048 .f32) :
    sout0_C_1 c i arg2 harg2 arg3 harg3 arg4 harg4 arg5 harg5 arg6 harg6 hc0 hc1 x0 x1 xs0 xs1 = k0_pay3 (tile i xs0) xs0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg5.read_unread, harg6.read_unread, View.ld_unit_zero (S := S2048x128) hz2, View.ld_unit_zero (S := S1x2048) hz2]
  rfl

/-- Last step: the output block is computed from the completed column sums and the masked input. -/
theorem oC2 (c : Dev nD) (i : grid0.Coords) (arg2 : Memref sig .tc .vmem S1x2048x128 .f32) (harg2 : arg2.IsWhole) (arg3 : Memref sig .tc .vmem S1x2048x1 .f32) (harg3 : arg3.IsWhole) (arg4 : Memref sig .tc .vmem S1x1x128 .f32) (harg4 : arg4.IsWhole) (arg5 : Memref sig .tc .vmem S2048x128 .bf16) (harg5 : arg5.IsWhole) (arg6 : Memref sig .tc .vmem S1x2048 .f32) (harg6 : arg6.IsWhole) (hc0 : ¬cond0_0 i) (hc1 : cond0_1 i)
    (x0 : Vec F S1x2048x128 .f32) (x1 : Vec F S1x2048x1 .f32) (xs0 : Vec F S2048x128 .bf16) (xs1 : Vec F S1x2048 .f32) :
    out0_C_2 c i arg2 harg2 arg3 harg3 arg4 harg4 arg5 harg5 arg6 harg6 hc0 hc1 x0 x1 xs0 xs1 = k0_pay4 (k0_pay3 (tile i xs0) xs0 xs1) xs0 := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz3, View.readCov_unit_zero (S := S1x2048) _ hz2]
  simp only [View.readAt_eq_ld, harg5.read_unread, harg6.read_unread, View.ld_unit_zero (S := S2048x128) hz2, View.ld_unit_zero (S := S1x2048) hz2]
  rfl

end Cert.KernelIdeal.KVal
end
-- ==== Proof.Steps.lean ====
/-
  The buffers the kernel carries from step to step, followed through the grid.

  Grid point n = 4·b + j is step j of batch b. At j = 0 the masked input of batch b is stored and the
  column sums restart from the first tile's; at j = 1, 2, 3 the masked input is kept and the column
  sums grow by tile j's; at j = 3 the output block is the contraction of the scaled column sums with
  the masked input. So after point n the first buffer holds X[b] and the second holds
  ∑_{k ≤ j} ∑_{r < 512} W[512·k + r, ·], and at j = 3 the output block holds the first result of batch b.
-/
import proofs.«136351_j42082089566246_2_alg».proof.Proof.Pieces

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

variable (m : (ℓ : Loc nD τ sig) → Buf (Elt F) ℓ)

/-- The point before a point that is not the first of its batch. -/
theorem pred_lt (t : Fin cfg0.N) : t.val - 1 < cfg0.N := Nat.lt_of_le_of_lt (Nat.sub_le _ _) t.isLt

/-- At the first step of a batch both carried buffers are functions of the two input blocks alone. -/
theorem carried_first (c : Dev nD) (t : Fin cfg0.N) (h0 : t.val % 4 = 0) :
    (outsAt0 m c t.val t.isLt).2.1 = k0_pay1 (iblk m c 0 t) (iblk m c 1 t)
    ∧ (outsAt0 m c t.val t.isLt).2.2
        = k0_pay3 (tile (grid0.coords t) (k0_pay1 (iblk m c 0 t) (iblk m c 1 t))) (k0_pay1 (iblk m c 0 t) (iblk m c 1 t)) k0_pay2 := by
  have h1 : ¬t.val % 4 = 3 := by omega
  rw [outsAt0_A m c t h0 h1]
  dsimp only
  exact ⟨sA0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t),
    sA1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)⟩

/-- At a later step the first buffer is kept and the second grows by this step's tile. -/
theorem carried_next (c : Dev nD) (t : Fin cfg0.N) (h0 : ¬t.val % 4 = 0) :
    (outsAt0 m c t.val t.isLt).2.1 = (outsAt0 m c (t.val - 1) (pred_lt t)).2.1
    ∧ (outsAt0 m c t.val t.isLt).2.2
        = k0_pay3 (tile (grid0.coords t) (outsAt0 m c (t.val - 1) (pred_lt t)).2.1) (outsAt0 m c (t.val - 1) (pred_lt t)).2.1
            (outsAt0 m c (t.val - 1) (pred_lt t)).2.2 := by
  by_cases h1 : t.val % 4 = 3
  · rw [outsAt0_C m c t h0 h1]
    dsimp only
    exact ⟨rfl, sC1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
      (outsAt0 m c (t.val - 1) (pred_lt t)).2.1 (outsAt0 m c (t.val - 1) (pred_lt t)).2.2⟩
  · rw [outsAt0_B m c t h0 h1]
    dsimp only
    exact ⟨rfl, sB1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t)
      (outsAt0 m c (t.val - 1) (pred_lt t)).2.1 (outsAt0 m c (t.val - 1) (pred_lt t)).2.2⟩

/-- At the last step of a batch the output block is computed from the completed column sums. -/
theorem out_last (c : Dev nD) (t : Fin cfg0.N) (h1 : t.val % 4 = 3) :
    (outsAt0 m c t.val t.isLt).1
      = k0_pay4 (k0_pay3 (tile (grid0.coords t) (outsAt0 m c (t.val - 1) (pred_lt t)).2.1) (outsAt0 m c (t.val - 1) (pred_lt t)).2.1
            (outsAt0 m c (t.val - 1) (pred_lt t)).2.2) (outsAt0 m c (t.val - 1) (pred_lt t)).2.1 := by
  have h0 : ¬t.val % 4 = 0 := by omega
  rw [outsAt0_C m c t h0 h1]
  dsimp only
  exact oC2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
    (outsAt0 m c (t.val - 1) (pred_lt t)).2.1 (outsAt0 m c (t.val - 1) (pred_lt t)).2.2

end Cert.KernelIdeal.KVal
end
-- ==== Proof.Payloads.lean ====
/-
  The four values the body stores, read at an index over the extended reals.

  A tile of 512 rows v6 and the full matrix of 2048 rows v7 (both 128 wide) give the scores
  S[r,l] = ∑_d v6[r,d] · v7[l,d], the row maxima M[r] = max_l S[r,l] (from −∞), the shifted exponentials
  E[r,l] = exp (S[r,l] − M[r]), the normalizers Z[r] = ∑_l E[r,l] and the weights W[r,l] = E[r,l] / Z[r].
  The four stored values are: the masked input x0[0,l,d] · x1[0,l,0]; zero; the running column sums
  plus ∑_r W[r,l]; and ∑_l (c[l] · 2⁻¹¹) · v32[l,d]. Each layout step (dropping or adding a unit axis,
  repeating a column) moves no value; each reduction over one axis is the sum, or the maximum, over
  that axis's coordinate; the matrix product into zero is the sum of products over the contracted axis.
-/
import proofs.«136351_j42082089566246_2_alg».proof.Proof.Gen.KernelIdeal.Skeleton
import proofs.«136351_j42082089566246_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KPay

open Cert.KernelIdeal Cert.KernelIdeal.Gen Idealize.ShloMosaic ValueIdx

/-! ## The mirrors of the specification over one tile -/

/-- Score of tile row r against row l: their inner product. -/
def tS (v6 : Vec Ideal S512x128 .bf16) (v7 : Vec Ideal S2048x128 .bf16) (r : Fin 512) (l : Fin 2048) : EReal :=
  ∑ d : Fin 128, v6 (ix2 r d) * v7 (ix2 l d)
/-- The largest score of tile row r. -/
def tM (v6 : Vec Ideal S512x128 .bf16) (v7 : Vec Ideal S2048x128 .bf16) (r : Fin 512) : EReal :=
  (Finset.univ : Finset (Fin 2048)).fold max Cert.AttnSpec.negInf (fun l => tS v6 v7 r l)
/-- The shifted exponential of a score. -/
def tE (v6 : Vec Ideal S512x128 .bf16) (v7 : Vec Ideal S2048x128 .bf16) (r : Fin 512) (l : Fin 2048) : EReal :=
  Ideal.exp (tS v6 v7 r l - tM v6 v7 r)
/-- The normalizer of tile row r. -/
def tZ (v6 : Vec Ideal S512x128 .bf16) (v7 : Vec Ideal S2048x128 .bf16) (r : Fin 512) : EReal :=
  ∑ l : Fin 2048, tE v6 v7 r l
/-- The softmax weight of column l in tile row r. -/
def tW (v6 : Vec Ideal S512x128 .bf16) (v7 : Vec Ideal S2048x128 .bf16) (r : Fin 512) (l : Fin 2048) : EReal :=
  Ideal.div (tE v6 v7 r l) (tZ v6 v7 r)

/-! ## Layout steps that keep a column -/

variable {α : Type}

/-- A vector of a entries viewed as a column [a, 1] reads, at (i, u), the entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated over b columns reads, at (i, c), the column's entry i. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## Reductions over one axis of a 512 × 2048 array -/

/-- Row r's index with column l put back on axis 1 is the index (r, l). -/
theorem lift_row (h : S512x2048.Reduces [1] S512) (r : Fin 512) (l : Fin 2048) : h.lift (ix1 r) l = ix2 r l := by
  funext c
  apply Fin.ext
  match c with
  | ⟨0, _⟩ => rfl
  | ⟨1, _⟩ => rfl

/-- Column l's index with row r put back on axis 0 is the index (r, l). -/
theorem lift_col (h : S512x2048.Reduces [0] S2048) (l : Fin 2048) (r : Fin 512) : h.lift (ix1 l) r = ix2 r l := by
  funext c
  apply Fin.ext
  match c with
  | ⟨0, _⟩ => rfl
  | ⟨1, _⟩ => rfl

/-- The maximum over axis 1, from the word of −∞, read at row r: the maximum of the row's entries. -/
theorem rowmax_apply (src : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r)
      = (Finset.univ : Finset (Fin 2048)).fold max Cert.AttnSpec.negInf (fun l => src (ix2 r l)) := by
  refine (Ideal.multiReduction_maximumf_single src _ h hφ hacc (ix1 r)).trans ?_
  show (Finset.univ : Finset (Fin 2048)).fold max Cert.AttnSpec.negInf (fun l => src (h.lift (ix1 r) l)) = _
  exact congrArg (fun f : Fin 2048 → EReal => (Finset.univ : Finset (Fin 2048)).fold max Cert.AttnSpec.negInf f)
    (funext fun l => congrArg src (lift_row h r l))

/-- The sum over axis 1 read at row r: the sum of the row's entries. -/
theorem rowsum_apply (src : FVec Ideal S512x2048 .f32) (h : S512x2048.Reduces [1] S512) (hφ : FKind.Formats .f32)
    (hacc : (0x00000000#32 : BitVec 32) = FKind.add.neutral .f32 hφ) (r : Fin 512) :
    multiReduction .add [1] S512 src 0x00000000#32 h hφ hacc (ix1 r) = ∑ l : Fin 2048, src (ix2 r l) := by
  refine (Ideal.multiReduction_add_single src _ h hφ hacc (ix1 r)).trans ?_
  show ∑ l : Fin 2048, src (h.lift (ix1 r) l) = _
  exact Finset.sum_congr rfl fun l _ => congrArg src (lift_row h r l)

/-- The sum over axis 0 read at column l: the sum of the column's entries. -/
theorem colsum_apply (src : FVec Ideal S512x2048 .f32) (h : S512x2048.Reduces [0] S2048) (hφ : FKind.Formats .f32)
    (hacc : (0x00000000#32 : BitVec 32) = FKind.add.neutral .f32 hφ) (l : Fin 2048) :
    multiReduction .add [0] S2048 src 0x00000000#32 h hφ hacc (ix1 l) = ∑ r : Fin 512, src (ix2 r l) := by
  refine (Ideal.multiReduction_add_single src _ h hφ hacc (ix1 l)).trans ?_
  show ∑ r : Fin 512, src (h.lift (ix1 l) r) = _
  exact Finset.sum_congr rfl fun r _ => congrArg src (lift_col h l r)

/-! ## The two matrix products into zero -/

/-- The dimension numbers of the scores' product: the 128-axis of both operands contracted. -/
abbrev dotS : DotDims S512x128 S2048x128 S512x2048 := dot_S512x128_S2048x128_S512x2048_1_1_0_0_n_n
/-- The dimension numbers of the last product: the left operand's columns against the right operand's rows. -/
abbrev dotO : DotDims S1x2048 S2048x128 S1x128 := dot_S1x2048_S2048x128_S1x128_1_0_0_1_n_n

/-- In the scores' product the left operand is read at the result's row … -/
theorem dotS_lhs0 (i : S512x2048.Idx) (q : dotS.contr.Idx) : (dotS.lhsIdx i q 0).val = (i 0).val := by
  unfold DotDims.lhsIdx
  rw [dif_neg (show ¬(0 : Fin S512x128.rank) ∈ dotS.lhsBatch by decide),
    dif_pos (show (0 : Fin S512x128.rank) ∈ dotS.lhsNonContracting by decide)]
  rfl
/-- … and the right operand at the result's column, as its row. -/
theorem dotS_rhs0 (i : S512x2048.Idx) (q : dotS.contr.Idx) : (dotS.rhsIdx i q 0).val = (i 1).val := by
  unfold DotDims.rhsIdx
  rw [dif_neg (show ¬(0 : Fin S2048x128.rank) ∈ dotS.rhsBatch by decide),
    dif_pos (show (0 : Fin S2048x128.rank) ∈ dotS.rhsNonContracting by decide)]
  rfl
/-- In the last product the left operand is read at the result's row … -/
theorem dotO_lhs0 (i : S1x128.Idx) (q : dotO.contr.Idx) : (dotO.lhsIdx i q 0).val = (i 0).val := by
  unfold DotDims.lhsIdx
  rw [dif_neg (show ¬(0 : Fin S1x2048.rank) ∈ dotO.lhsBatch by decide),
    dif_pos (show (0 : Fin S1x2048.rank) ∈ dotO.lhsNonContracting by decide)]
  rfl
/-- … and the right operand at the result's column. -/
theorem dotO_rhs1 (i : S1x128.Idx) (q : dotO.contr.Idx) : (dotO.rhsIdx i q 1).val = (i 1).val := by
  unfold DotDims.rhsIdx
  rw [dif_neg (show ¬(1 : Fin S2048x128.rank) ∈ dotO.rhsBatch by decide),
    dif_pos (show (1 : Fin S2048x128.rank) ∈ dotO.rhsNonContracting by decide)]
  rfl

/-- The scores: tile row r against row l, the sum of products over the 128 coordinates. -/
theorem scores_apply (v6 : FVec Ideal S512x128 .bf16) (v7 : FVec Ideal S2048x128 .bf16) (r : Fin 512) (l : Fin 2048) :
    matmul dotS none v6 v7 (constant (F := Ideal) S512x2048 .f32 0x00000000#32) (ix2 r l) = tS v6 v7 r l := by
  refine (Ideal.matmul_constant_zero_apply dotS none v6 v7 (ix2 r l)).trans ?_
  rw [← Equiv.sum_comp (contrEquiv1 dotS 128 rfl rfl).symm]
  refine Finset.sum_congr rfl fun k _ => ?_
  have hk := contrEquiv1_symm_val dotS 128 rfl rfl k
  have el : dotS.lhsIdx (ix2 r l) ((contrEquiv1 dotS 128 rfl rfl).symm k) = ix2 r k := funext fun a => Fin.ext (by
    match a with
    | ⟨0, _⟩ => exact dotS_lhs0 _ _
    | ⟨1, _⟩ => exact (dotS.lhsIdx_val_of_single rfl _ _).trans hk)
  have er : dotS.rhsIdx (ix2 r l) ((contrEquiv1 dotS 128 rfl rfl).symm k) = ix2 l k := funext fun a => Fin.ext (by
    match a with
    | ⟨0, _⟩ => exact dotS_rhs0 _ _
    | ⟨1, _⟩ => exact (dotS.rhsIdx_val_of_single rfl _ _).trans hk)
  rw [el, er]

/-- The last product: the one row of the left operand against column d of the right, summed over the 2048 rows. -/
theorem out_apply (w : FVec Ideal S1x2048 .bf16) (v32 : FVec Ideal S2048x128 .bf16) (u : Fin 1) (d : Fin 128) :
    matmul dotO none w v32 (constant (F := Ideal) S1x128 .f32 0x00000000#32) (ix2 u d)
      = ∑ l : Fin 2048, w (ix2 u l) * v32 (ix2 l d) := by
  refine (Ideal.matmul_constant_zero_apply dotO none w v32 (ix2 u d)).trans ?_
  rw [← Equiv.sum_comp (contrEquiv1 dotO 2048 rfl rfl).symm]
  refine Finset.sum_congr rfl fun k _ => ?_
  have hk := contrEquiv1_symm_val dotO 2048 rfl rfl k
  have el : dotO.lhsIdx (ix2 u d) ((contrEquiv1 dotO 2048 rfl rfl).symm k) = ix2 u k := funext fun a => Fin.ext (by
    match a with
    | ⟨0, _⟩ => exact dotO_lhs0 _ _
    | ⟨1, _⟩ => exact (dotO.lhsIdx_val_of_single rfl _ _).trans hk)
  have er : dotO.rhsIdx (ix2 u d) ((contrEquiv1 dotO 2048 rfl rfl).symm k) = ix2 k d := funext fun a => Fin.ext (by
    match a with
    | ⟨0, _⟩ => exact (dotO.rhsIdx_val_of_single rfl _ _).trans hk
    | ⟨1, _⟩ => exact dotO_rhs1 _ _)
  rw [el, er]

/-! ## The third stored value: the running column sums plus the tile's column sums of weights -/

section Weights
variable (v6 : FVec Ideal S512x128 .bf16) (v7 : FVec Ideal S2048x128 .bf16)

/-- The body's scores, row maxima, shifted exponentials, normalizers and weights, as arrays. -/
def aS : FVec Ideal S512x2048 .f32 := matmul dotS none v6 v7 (constant (F := Ideal) S512x2048 .f32 0x00000000#32)
def aM : FVec Ideal S512 .f32 :=
  multiReduction .maximumf [1] S512 (aS v6 v7) 0xFF800000#32 reduces_S512x2048_S512 (.inl rfl) rfl
def aE : FVec Ideal S512x2048 .f32 :=
  exp (subf (aS v6 v7) (broadcastTo S512x2048 (shapeCast S512x1 (aM v6 v7) shapeCasts_S512_S512x1) broadcasts_S512x1_S512x2048))
def aZ : FVec Ideal S512 .f32 :=
  multiReduction .add [1] S512 (aE v6 v7) 0x00000000#32 reduces_S512x2048_S512 (.inl rfl) rfl
def aW : FVec Ideal S512x2048 .f32 :=
  divf (aE v6 v7) (broadcastTo S512x2048 (shapeCast S512x1 (aZ v6 v7) shapeCasts_S512_S512x1) broadcasts_S512x1_S512x2048)

theorem aS_apply (r : Fin 512) (l : Fin 2048) : aS v6 v7 (ix2 r l) = tS v6 v7 r l := scores_apply v6 v7 r l

theorem aM_apply (r : Fin 512) : aM v6 v7 (ix1 r) = tM v6 v7 r :=
  (rowmax_apply (aS v6 v7) _ _ _ r).trans
    (congrArg (fun f : Fin 2048 → EReal => (Finset.univ : Finset (Fin 2048)).fold max Cert.AttnSpec.negInf f)
      (funext fun l => aS_apply v6 v7 r l))

/-- A row's value viewed as a column and repeated over the 2048 columns reads, at (r, l), the row's value. -/
theorem keep_apply (x : FVec Ideal S512 .f32) (r : Fin 512) (l : Fin 2048) :
    broadcastTo S512x2048 (shapeCast S512x1 x shapeCasts_S512_S512x1) broadcasts_S512x1_S512x2048 (ix2 r l) = x (ix1 r) :=
  (broadcastTo_a1_ab_apply _ _ r l).trans (shapeCast_a_a1_apply x _ r 0)

theorem aE_apply (r : Fin 512) (l : Fin 2048) : aE v6 v7 (ix2 r l) = tE v6 v7 r l := by
  show Ideal.exp (aS v6 v7 (ix2 r l) - broadcastTo S512x2048 (shapeCast S512x1 (aM v6 v7) shapeCasts_S512_S512x1)
    broadcasts_S512x1_S512x2048 (ix2 r l)) = _
  rw [keep_apply, aS_apply, aM_apply]
  rfl

theorem aZ_apply (r : Fin 512) : aZ v6 v7 (ix1 r) = tZ v6 v7 r :=
  (rowsum_apply (aE v6 v7) _ _ _ r).trans (Finset.sum_congr rfl fun l _ => aE_apply v6 v7 r l)

theorem aW_apply (r : Fin 512) (l : Fin 2048) : aW v6 v7 (ix2 r l) = tW v6 v7 r l := by
  show Ideal.div (aE v6 v7 (ix2 r l)) (broadcastTo S512x2048 (shapeCast S512x1 (aZ v6 v7) shapeCasts_S512_S512x1)
    broadcasts_S512x1_S512x2048 (ix2 r l)) = _
  rw [keep_apply, aE_apply, aZ_apply]
  rfl

/-- The third stored value is the running sums plus the column sums of the weights, through two layout steps. -/
theorem pay3_eq (v20 : FVec Ideal S1x2048 .f32) :
    k0_pay3 (F := Ideal) v6 v7 v20
      = shapeCast S1x2048 (addf v20 (shapeCast S1x2048
          (multiReduction .add [0] S2048 (aW v6 v7) 0x00000000#32 reduces_S512x2048_S2048 (.inl rfl) rfl)
          shapeCasts_S2048_S1x2048)) shapeCasts_S1x2048_S1x2048 := rfl

end Weights

theorem pay3_apply (v6 : Vec Ideal S512x128 .bf16) (v7 : Vec Ideal S2048x128 .bf16) (v20 : Vec Ideal S1x2048 .f32) (l : Fin 2048) :
    k0_pay3 (F := Ideal) v6 v7 v20 (ix2 (0 : Fin 1) l) = v20 (ix2 (0 : Fin 1) l) + ∑ r : Fin 512, tW v6 v7 r l := by
  refine (congrFun (pay3_eq v6 v7 v20) _).trans ?_
  refine (congrFun (shapeCast_self _ _) _).trans ?_
  have e1 : shapeCast S1x2048
      (multiReduction .add [0] S2048 (aW v6 v7) 0x00000000#32 reduces_S512x2048_S2048 (.inl rfl) rfl)
      shapeCasts_S2048_S1x2048 (ix2 (0 : Fin 1) l) = ∑ r : Fin 512, tW v6 v7 r l :=
    (shapeCast_a_1a_apply _ _ 0 l).trans
      ((colsum_apply (aW v6 v7) _ _ _ l).trans (Finset.sum_congr rfl fun r _ => aW_apply v6 v7 r l))
  exact congrArg (v20 (ix2 (0 : Fin 1) l) + ·) e1

/-! ## The fourth stored value: the scaled column sums contracted with the matrix -/

/-- The fourth stored value is the product of the scaled row (c[l] · 2⁻¹¹) with the matrix, through one layout step. -/
theorem pay4_eq (v28 : FVec Ideal S1x2048 .f32) (v32 : FVec Ideal S2048x128 .bf16) :
    k0_pay4 (F := Ideal) v28 v32
      = shapeCast S1x1x128 (matmul dotO none ((fun i => v28 i * Cert.AttnSpec.invL : FVec Ideal S1x2048 .bf16)) v32
          (constant (F := Ideal) S1x128 .f32 0x00000000#32)) shapeCasts_S1x128_S1x1x128 := rfl

theorem pay4_apply (v28 : Vec Ideal S1x2048 .f32) (v32 : Vec Ideal S2048x128 .bf16) (d : Fin 128) :
    k0_pay4 (F := Ideal) v28 v32 (ix3 (0 : Fin 1) (0 : Fin 1) d)
      = ∑ l : Fin 2048, (v28 (ix2 (0 : Fin 1) l) * Cert.AttnSpec.invL) * v32 (ix2 l d) := by
  refine (congrFun (pay4_eq v28 v32) _).trans ?_
  refine (shapeCast_ab_1ab_apply _ _ 0 0 d).trans ?_
  exact out_apply _ v32 0 d

/-! ## The first stored value: the input scaled by its row's mask entry -/

theorem pay1_eq (x0 : FVec Ideal S1x2048x128 .f32) (x1 : FVec Ideal S1x2048x1 .f32) :
    k0_pay1 (F := Ideal) x0 x1
      = shapeCast S2048x128 ((fun i => shapeCast S2048x128 x0 shapeCasts_S1x2048x128_S2048x128 i
          * broadcastTo S2048x128 (shapeCast S2048x1 x1 shapeCasts_S1x2048x1_S2048x1) broadcasts_S2048x1_S2048x128 i
          : FVec Ideal S2048x128 .bf16)) shapeCasts_S2048x128_S2048x128 := rfl

theorem pay1_apply (x0 : Vec Ideal S1x2048x128 .f32) (x1 : Vec Ideal S1x2048x1 .f32) (l : Fin 2048) (d : Fin 128) :
    k0_pay1 (F := Ideal) x0 x1 (ix2 l d) = x0 (ix3 (0 : Fin 1) l d) * x1 (ix3 (0 : Fin 1) l (0 : Fin 1)) := by
  refine (congrFun (pay1_eq x0 x1) _).trans ?_
  refine (congrFun (shapeCast_self _ _) _).trans ?_
  show shapeCast S2048x128 x0 shapeCasts_S1x2048x128_S2048x128 (ix2 l d)
    * broadcastTo S2048x128 (shapeCast S2048x1 x1 shapeCasts_S1x2048x1_S2048x1) broadcasts_S2048x1_S2048x128 (ix2 l d) = _
  have e0 : shapeCast S2048x128 x0 shapeCasts_S1x2048x128_S2048x128 (ix2 l d) = x0 (ix3 (0 : Fin 1) l d) :=
    shapeCast_1ab_ab_apply x0 _ l d
  have e1 : broadcastTo S2048x128 (shapeCast S2048x1 x1 shapeCasts_S1x2048x1_S2048x1) broadcasts_S2048x1_S2048x128 (ix2 l d)
      = x1 (ix3 (0 : Fin 1) l (0 : Fin 1)) :=
    (broadcastTo_a1_ab_apply _ _ l d).trans (shapeCast_1ab_ab_apply x1 _ l 0)
  rw [e0, e1]

/-! ## The second stored value: zero -/

theorem pay2_apply (l : Fin 2048) : k0_pay2 (F := Ideal) (ix2 (0 : Fin 1) l) = 0 := by
  have e : k0_pay2 (F := Ideal) = shapeCast S1x2048 (fun _ => Ideal.ofBits .f32 0x00000000#32 : FVec Ideal S1x2048 .f32)
      shapeCasts_S1x2048_S1x2048 := rfl
  refine (congrFun e _).trans ?_
  refine (congrFun (shapeCast_self _ _) _).trans ?_
  exact Ideal.ofBits_zero_f32

end Cert.KernelIdeal.KPay

end
-- ==== Proof.Blocks.lean ====
/-
  What the blocks of the grid read of the argument arrays, and what the run leaves in the result arrays.

  The grid has 16 × 4 points; point t works on batch t / 4 at step t % 4. The first window reads rows of the
  first argument: its block at point t is the 2048 × 128 slab of batch t / 4. The second window reads the
  second argument broadcast along a trailing unit axis: its block at point t is the 2048 entries of batch
  t / 4. At step k the body loads rows 512·k … 512·k + 511 of a 2048 × 128 scratch. The third window is the
  first result: its block at point t is row t / 4, written back at the last step of each batch only, so the
  points 4·b + 3 cover the result. The second result is a constant broadcast, written after the region.
-/
import proofs.«136351_j42082089566246_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.KBlk

open Idealize.ShloMosaic Idealize.ShloMosaic.TcCoe Idealize.SL.Sem
open Idealize.ShloMosaic.Pipeline (Dat)
open Cert.KernelIdeal Cert.KernelIdeal.Gen ValueIdx

variable {F : FTy → Type} [FloatOps F]
variable (m : (ℓ : Loc nD τ sig) → Buf (Elt F) ℓ) (ρ : Dev nD → PrngReg)

/-! ### The index maps at every grid point -/

/-- The first window's block index at point t is (t / 4, 0, 0). -/
theorem idx0 : ∀ t : Fin cfg0.N, win0_0.index t = ![t.val / 4, 0, 0] :=
  (by decide +kernel : ∀ t : Fin grid0.N, win0_0.index t = ![t.val / 4, 0, 0])

/-- The second window's block index at point t is (t / 4, 0, 0). -/
theorem idx1 : ∀ t : Fin cfg0.N, win0_1.index t = ![t.val / 4, 0, 0] :=
  (by decide +kernel : ∀ t : Fin grid0.N, win0_1.index t = ![t.val / 4, 0, 0])

/-- The third window's block index at point t is (t / 4, 0, 0). -/
theorem idx2 : ∀ t : Fin cfg0.N, win0_2.index t = ![t.val / 4, 0, 0] :=
  (by decide +kernel : ∀ t : Fin grid0.N, win0_2.index t = ![t.val / 4, 0, 0])

/-- The rows the body loads at point t start at 512 · (t % 4). -/
theorem off1_eq : ∀ t : Fin cfg0.N, k0_off1 (grid0.coords t) = ![512 * (t.val % 4), 0] :=
  (by decide +kernel : ∀ t : Fin grid0.N, k0_off1 (grid0.coords t) = ![512 * (t.val % 4), 0])

/-- A point's batch is below 16. -/
theorem batch_lt (t : Fin cfg0.N) : t.val / 4 < 16 := by
  have h : t.val < 64 := lt_of_lt_of_eq t.isLt (show cfg0.N = 64 from N_0)
  omega

/-! ### The first window: rows of the first argument -/

/-- The first window's block at point t is the slab of batch t / 4 of the first argument. -/
theorem iblk0_apply (c : Dev nD) (t : Fin cfg0.N) (l : Fin 2048) (d : Fin 128) :
    iblk m c 0 t (ix3 (0 : Fin 1) l d : S1x2048x128.Idx)
      = m ((c : Thread nD τ).loc main_arg0) (ix3 (⟨t.val / 4, batch_lt t⟩ : Fin 16) l d) := by
  unfold iblk
  rw [View.read_apply]
  show V m c main_arg0 _ = m (c.tc.loc main_arg0) _
  rw [V_main_arg0]
  refine congrArg (m (c.tc.loc main_arg0)) (funext fun a => Fin.ext ?_)
  have h0 : win0_0.index t 0 = t.val / 4 := congrFun (idx0 t) 0
  have h1 : win0_0.index t 1 = 0 := congrFun (idx0 t) 1
  have h2 : win0_0.index t 2 = 0 := congrFun (idx0 t) 2
  match a with
  | ⟨0, _⟩ => show win0_0.index t 0 * 1 + 1 * 0 = t.val / 4; rw [h0]; omega
  | ⟨1, _⟩ => show win0_0.index t 1 * 2048 + 1 * l.val = l.val; rw [h1]; omega
  | ⟨2, _⟩ => show win0_0.index t 2 * 128 + 1 * d.val = d.val; rw [h2]; omega

/-! ### The second window: the second argument with a trailing unit axis -/

/-- When the region starts, the second window's array is the second argument broadcast along a trailing unit axis. -/
theorem V_main_v0 (c : Dev nD) :
    (V m c main_v0 : S16x2048x1.Idx → Elt F .f32)
      = broadcastInDim S16x2048x1 ![0, 1] bcast_S16x2048_S16x2048x1_0_1 (m ((c : Thread nD τ).loc main_arg1)) := by
  show StableHlo.after hostOps0 (fun b => m (c, b)) (Proc.devRef .tc main_v0) = _
  after_results

/-- The second window's block at point t is row t / 4 of the second argument. -/
theorem iblk1_apply (c : Dev nD) (t : Fin cfg0.N) (l : Fin 2048) :
    iblk m c 1 t (ix3 (0 : Fin 1) l (0 : Fin 1) : S1x2048x1.Idx)
      = m ((c : Thread nD τ).loc main_arg1) (ix2 (⟨t.val / 4, batch_lt t⟩ : Fin 16) l) := by
  unfold iblk
  rw [View.read_apply]
  show (V m c main_v0 : S16x2048x1.Idx → Elt F .f32) _ = m (c.tc.loc main_arg1) _
  rw [V_main_v0]
  have h0 : win0_1.index t 0 = t.val / 4 := congrFun (idx1 t) 0
  have h1 : win0_1.index t 1 = 0 := congrFun (idx1 t) 1
  refine broadcastInDim_apply _ bcast_S16x2048_S16x2048x1_0_1 (m (c.tc.loc main_arg1)) _
    (ix2 (⟨t.val / 4, batch_lt t⟩ : Fin 16) l) (fun a => ?_)
  match a with
  | ⟨0, _⟩ =>
    show t.val / 4 = if (16 : Nat) = 1 then 0 else win0_1.index t 0 * 1 + 1 * 0
    rw [if_neg (by decide), h0]; omega
  | ⟨1, _⟩ =>
    show l.val = if (2048 : Nat) = 1 then 0 else win0_1.index t 1 * 2048 + 1 * l.val
    rw [if_neg (by decide), h1]; omega

/-! ### The rows the body loads at a step -/

/-- At step k the 512 × 128 load of the scratch reads its rows 512·k … 512·k + 511. -/
theorem tile_apply (i : grid0.Coords) (xs0 : Vec F S2048x128 .bf16) (k : ℕ) (hk : k < 4)
    (hoff : k0_off1 i = ![512 * k, 0]) (r : Fin 512) (d : Fin 128) :
    View.ld xs0 (Rect.unit (s := S2048x128) (k0_off1 i) S512x128.size (k0_off1_inb i)) (ix2 r d)
      = xs0 (ix2 (⟨k * 512 + r.val, by have := r.isLt; omega⟩ : Fin 2048) d) := by
  show xs0 _ = xs0 _
  refine congrArg xs0 (funext fun a => Fin.ext ?_)
  have h0 : k0_off1 i 0 = 512 * k := congrFun hoff 0
  have h1 : k0_off1 i 1 = 0 := congrFun hoff 1
  match a with
  | ⟨0, _⟩ => show k0_off1 i 0 + 1 * r.val = k * 512 + r.val; rw [h0]; omega
  | ⟨1, _⟩ => show k0_off1 i 1 + 1 * d.val = d.val; rw [h1]; omega

/-! ### The third window: the first result -/

/-- The block of the first result at point t is its row t / 4. -/
theorem blk2_read (G : S16x1x128.Idx → Elt F .f32) (t : Fin cfg0.N) (d : Fin 128) :
    ((cfg0.win 2).blk t).view.read (Elt F) G (ix3 (0 : Fin 1) (0 : Fin 1) d : S1x1x128.Idx)
      = G (ix3 (⟨t.val / 4, batch_lt t⟩ : Fin 16) (0 : Fin 1) d) := by
  rw [View.read_apply]
  show G _ = G _
  refine congrArg G (funext fun a => Fin.ext ?_)
  have h0 : win0_2.index t 0 = t.val / 4 := congrFun (idx2 t) 0
  have h1 : win0_2.index t 1 = 0 := congrFun (idx2 t) 1
  have h2 : win0_2.index t 2 = 0 := congrFun (idx2 t) 2
  match a with
  | ⟨0, _⟩ => show win0_2.index t 0 * 1 + 1 * 0 = t.val / 4; rw [h0]; omega
  | ⟨1, _⟩ => show win0_2.index t 1 * 1 + 1 * 0 = 0; rw [h1]
  | ⟨2, _⟩ => show win0_2.index t 2 * 128 + 1 * d.val = d.val; rw [h2]; omega

/-- Every entry of the first result lies in the block of a point that writes it back: row b in that of point 4·b + 3. -/
theorem cover2 : ∀ i : S16x1x128.Idx, ∃ t : Fin cfg0.N, (cfg0.win 2).flush t = true ∧ i ∈ ((cfg0.win 2).blk t).view.set := by
  intro i
  have hb : (i 0 : Nat) < 16 := (i 0).isLt
  have hr : (i 1 : Nat) < 1 := (i 1).isLt
  have hd : (i 2 : Nat) < 128 := (i 2).isLt
  have hN : cfg0.N = 64 := N_0
  let t : Fin cfg0.N := ⟨4 * (i 0 : Nat) + 3, by omega⟩
  have ht : t.val = 4 * (i 0 : Nat) + 3 := rfl
  refine ⟨t, (flush0_2 t).mpr (by rw [ht]; omega), ?_⟩
  show i ∈ ((View.whole main_v1).slice (win0_2.rect t)).set
  rw [View.set_slice_whole, Rect.mem_set_unit]
  have h0 : win0_2.index t 0 = t.val / 4 := congrFun (idx2 t) 0
  have h1 : win0_2.index t 1 = 0 := congrFun (idx2 t) 1
  have h2 : win0_2.index t 2 = 0 := congrFun (idx2 t) 2
  intro a
  match a with
  | ⟨0, _⟩ =>
    show win0_2.index t 0 * 1 ≤ (i 0 : Nat) ∧ (i 0 : Nat) < win0_2.index t 0 * 1 + 1
    rw [h0, ht]; omega
  | ⟨1, _⟩ =>
    show win0_2.index t 1 * 1 ≤ (i 1 : Nat) ∧ (i 1 : Nat) < win0_2.index t 1 * 1 + 1
    rw [h1]; omega
  | ⟨2, _⟩ =>
    show win0_2.index t 2 * 128 ≤ (i 2 : Nat) ∧ (i 2 : Nat) < win0_2.index t 2 * 128 + 128
    rw [h2]; omega

/-- What a write-back of the third window writes is what the body left in its buffer: the block is never cut. -/
theorem flushed2_eq (c : Dev nD) (t : Fin cfg0.N) :
    (dats m 0 c).flushed 2 t = (outsAt0 m c t.val t.isLt).1 := by
  show (cfg0.win 2).cut (grid0.coords t) ((dats m 0 c).after 2 t) = _
  rw [after0_2]
  rfl

/-- The first result ends at G as soon as, at every point that writes back, the body left row t / 4 of G. -/
theorem arrAt2_eq (c : Dev nD) (G : S16x1x128.Idx → Elt F .f32)
    (hG : ∀ t : Fin cfg0.N, t.val % 4 = 3 → ∀ d : Fin 128,
      (outsAt0 m c t.val t.isLt).1 (ix3 (0 : Fin 1) (0 : Fin 1) d)
        = G (ix3 (⟨t.val / 4, batch_lt t⟩ : Fin 16) (0 : Fin 1) d)) :
    (dats m 0 c).arrAt 2 cfg0.N = G :=
  (dats m 0 c).arrAt_eq_of_cover 2 G (fun t hf => by
    rw [flushed2_eq]
    refine funext fun y => ?_
    have e : (y : S1x1x128.Idx) = ix3 (0 : Fin 1) (0 : Fin 1) (y 2 : Fin 128) := by
      funext a
      match a with
      | ⟨0, _⟩ => exact Subsingleton.elim (α := Fin 1) _ _
      | ⟨1, _⟩ => exact Subsingleton.elim (α := Fin 1) _ _
      | ⟨2, _⟩ => rfl
    exact (congrArg (outsAt0 m c t.val t.isLt).1 e).trans ((hG t ((flush0_2 t).mp hf) (y 2)).trans
      ((blk2_read G t (y 2)).symm.trans (congrArg (((cfg0.win 2).blk t).view.read (Elt F) G) e.symm)))) cover2

/-! ### The run, read back -/

/-- The second result after the run: the constant word broadcast to all 16 × 2048 entries. -/
theorem tail_main_v2 (c : Dev nD) :
    Pipeline.afterTail₀ cfgs (dats m) 0 (V0 m) [hostOps1] c main_v2
      = broadcastInDim S16x2048 ![] bcast_S_S16x2048 (constant (F := F) S_ .f32 0x3A000000#32) := by
  unfold Pipeline.afterTail₀
  show StableHlo.after hostOps1 _ (Proc.devRef .tc main_v2) = _
  after_results

/-- Every run ends with the first result at what the write-backs of the third window leave, the second result at
    the broadcast constant, and both arguments as launched. -/
theorem run_named : θ_run defs (onTc (τ := τ) (main (F := F))) ⟨m, fun _ => 0, ρ⟩ (fun r => ∀ c : Dev nD,
      r.2.mem ((c.tc : Thread nD τ).loc main_v1) = (dats m 0 c).arrAt 2 cfg0.N
      ∧ r.2.mem ((c.tc : Thread nD τ).loc main_v2)
          = broadcastInDim S16x2048 ![] bcast_S_S16x2048 (constant (F := F) S_ .f32 0x3A000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).1 2,
     ((h c).2 main_v2 (Pipeline.mem_restRefs_of main_v2 (by decide) (by decide))).trans (tail_main_v2 m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KBlk

end
-- ==== Proof.Values.lean ====
/-
  The carried buffers and the output block as values of the specification.

  With X[b,l,d] = input[b,l,d] · mask[b,l] and W the row-softmax weights of the scores X Xᵀ of batch b:
  after grid point n = 4·b + j the first carried buffer holds X[b], the second holds, at column l,
  ∑_{k ≤ j} ∑_{r < 512} W[512·k + r, l], and at j = 3 the output block holds, at coordinate d,
  ∑_l ((∑_{k < 4} ∑_{r < 512} W[512·k + r, l]) · 2⁻¹¹) · X[b,l,d], the specification's first result.
  The proof is an induction on the point: step j = 0 restarts from the input blocks, a later step
  adds tile j's column sums to what the point before left.
-/
import proofs.«136351_j42082089566246_2_alg».proof.Proof.Steps
import proofs.«136351_j42082089566246_2_alg».proof.Proof.Payloads
import proofs.«136351_j42082089566246_2_alg».proof.Proof.Blocks
import proofs.«136351_j42082089566246_2_alg».proof.Proof.Spec

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen ValueIdx Cert.AttnSpec Cert.KernelIdeal.KPay Cert.KernelIdeal.KBlk

variable (m : (ℓ : Loc nD τ sig) → Buf (Elt Ideal) ℓ)

/-- The masked input, from the two argument arrays as launched. -/
abbrev XK (c : Dev nD) : Fin 16 → Fin 2048 → Fin 128 → EReal :=
  xm (arr3 (m ((c.tc : Thread nD τ).loc main_arg0))) (arr2 (m ((c.tc : Thread nD τ).loc main_arg1)))

/-- The batch of grid point n. -/
def bat (n : ℕ) (hn : n < cfg0.N) : Fin 16 := ⟨n / 4, by have h : cfg0.N = 64 := N_0; omega⟩

/-- Column l of the column sums of the weights of tile k (zero past the four tiles). -/
def tsum (X : Fin 16 → Fin 2048 → Fin 128 → EReal) (b : Fin 16) (k : ℕ) (l : Fin 2048) : EReal :=
  if h : k < 4 then ∑ r : Fin 512, wt X b (tileRow ⟨k, h⟩ r) l else 0

/-- Weights computed from a tile and a matrix that hold rows of X are the specification's weights. -/
theorem tW_eq (v6 : Vec Ideal S512x128 .bf16) (v7 : Vec Ideal S2048x128 .bf16) (X : Fin 16 → Fin 2048 → Fin 128 → EReal)
    (b : Fin 16) (j : Fin 4) (h6 : ∀ r d, v6 (ix2 r d) = X b (tileRow j r) d) (h7 : ∀ l d, v7 (ix2 l d) = X b l d)
    (r : Fin 512) (l : Fin 2048) : tW v6 v7 r l = wt X b (tileRow j r) l := by
  simp only [tW, tE, tZ, tM, tS, wt, ex, zs, rmax, sc, h6, h7]

/-- The column sums a step adds, when its tile and matrix hold rows of X. -/
theorem step_sum (v6 : Vec Ideal S512x128 .bf16) (v7 : Vec Ideal S2048x128 .bf16) (X : Fin 16 → Fin 2048 → Fin 128 → EReal)
    (b : Fin 16) (k : ℕ) (hk : k < 4) (h6 : ∀ r d, v6 (ix2 r d) = X b (tileRow ⟨k, hk⟩ r) d) (h7 : ∀ l d, v7 (ix2 l d) = X b l d)
    (l : Fin 2048) : ∑ r : Fin 512, tW v6 v7 r l = tsum X b k l := by
  unfold tsum
  rw [dif_pos hk]
  exact Finset.sum_congr rfl fun r _ => tW_eq v6 v7 X b ⟨k, hk⟩ h6 h7 r l

/-- The first stored value at a batch's first point is X of that batch. -/
theorem first_X (c : Dev nD) (t : Fin cfg0.N) (l : Fin 2048) (d : Fin 128) :
    k0_pay1 (F := Ideal) (iblk m c 0 t) (iblk m c 1 t) (ix2 l d) = XK m c (bat t.val t.isLt) l d :=
  (pay1_apply (iblk m c 0 t) (iblk m c 1 t) l d).trans
    (congrArg₂ (· * ·) (iblk0_apply m c t l d) (iblk1_apply m c t l))

/-- THE INVARIANT: after point n the carried buffers hold X of the batch and the partial column sums. -/
theorem carried (c : Dev nD) : ∀ (n : ℕ) (hn : n < cfg0.N),
    (∀ l d, (outsAt0 m c n hn).2.1 (ix2 l d) = XK m c (bat n hn) l d)
    ∧ (∀ l, (outsAt0 m c n hn).2.2 (ix2 (0 : Fin 1) l) = ∑ k ∈ Finset.range (n % 4 + 1), tsum (XK m c) (bat n hn) k l) := by
  intro n
  induction n with
  | zero =>
    intro hn
    obtain ⟨e1, e2⟩ := carried_first m c ⟨0, hn⟩ rfl
    have hX : ∀ l d, k0_pay1 (F := Ideal) (iblk m c 0 ⟨0, hn⟩) (iblk m c 1 ⟨0, hn⟩) (ix2 l d) = XK m c (bat 0 hn) l d :=
      fun l d => first_X m c ⟨0, hn⟩ l d
    refine ⟨fun l d => (congrFun e1 (ix2 l d)).trans (hX l d), fun l => ?_⟩
    refine (congrFun e2 (ix2 (0 : Fin 1) l)).trans ?_
    refine (pay3_apply _ _ _ l).trans ?_
    rw [pay2_apply, zero_add, Finset.sum_range_one]
    exact step_sum _ _ (XK m c) (bat 0 hn) 0 (by omega)
      (fun r d => (tile_apply (grid0.coords ⟨0, hn⟩) _ 0 (by omega) (off1_eq ⟨0, hn⟩) r d).trans (hX _ d)) hX l
  | succ n ih =>
    intro hn
    have hN : cfg0.N = 64 := N_0
    by_cases h0 : (n + 1) % 4 = 0
    · obtain ⟨e1, e2⟩ := carried_first m c ⟨n + 1, hn⟩ h0
      have hX : ∀ l d, k0_pay1 (F := Ideal) (iblk m c 0 ⟨n + 1, hn⟩) (iblk m c 1 ⟨n + 1, hn⟩) (ix2 l d) = XK m c (bat (n + 1) hn) l d :=
        fun l d => first_X m c ⟨n + 1, hn⟩ l d
      refine ⟨fun l d => (congrFun e1 (ix2 l d)).trans (hX l d), fun l => ?_⟩
      refine (congrFun e2 (ix2 (0 : Fin 1) l)).trans ?_
      refine (pay3_apply _ _ _ l).trans ?_
      rw [pay2_apply, zero_add, h0, Finset.sum_range_one]
      exact step_sum _ _ (XK m c) (bat (n + 1) hn) 0 (by omega)
        (fun r d => (tile_apply (grid0.coords ⟨n + 1, hn⟩) _ 0 (by omega)
          ((off1_eq ⟨n + 1, hn⟩).trans (by show ![512 * ((n + 1) % 4), 0] = ![512 * 0, 0]; rw [h0])) r d).trans (hX _ d)) hX l
    · obtain ⟨e1, e2⟩ := carried_next m c ⟨n + 1, hn⟩ h0
      obtain ⟨ihX, ihS⟩ := ih (Nat.lt_of_succ_lt hn)
      have hb : bat n (Nat.lt_of_succ_lt hn) = bat (n + 1) hn := Fin.ext (by show n / 4 = (n + 1) / 4; omega)
      have hk : (n + 1) % 4 < 4 := Nat.mod_lt _ (by omega)
      have hX : ∀ l d, (outsAt0 m c n (Nat.lt_of_succ_lt hn)).2.1 (ix2 l d) = XK m c (bat (n + 1) hn) l d :=
        fun l d => (ihX l d).trans (by rw [hb])
      refine ⟨fun l d => (congrFun e1 (ix2 l d)).trans (hX l d), fun l => ?_⟩
      refine (congrFun e2 (ix2 (0 : Fin 1) l)).trans ?_
      refine (pay3_apply _ _ _ l).trans ?_
      rw [show (n + 1) % 4 + 1 = (n % 4 + 1) + 1 from by omega, Finset.sum_range_succ]
      refine congrArg₂ (· + ·) ((ihS l).trans (by rw [hb])) ?_
      rw [show n % 4 + 1 = (n + 1) % 4 from by omega]
      exact step_sum _ _ (XK m c) (bat (n + 1) hn) ((n + 1) % 4) hk
        (fun r d => (tile_apply (grid0.coords ⟨n + 1, hn⟩) _ ((n + 1) % 4) hk (off1_eq ⟨n + 1, hn⟩) r d).trans (hX _ d)) hX l

/-- At the last point of a batch the output block holds the specification's first result. -/
theorem out_value (c : Dev nD) (t : Fin cfg0.N) (h3 : t.val % 4 = 3) (d : Fin 128) :
    (outsAt0 m c t.val t.isLt).1 (ix3 (0 : Fin 1) (0 : Fin 1) d) = outK (XK m c) (bat t.val t.isLt) d := by
  have hN : cfg0.N = 64 := N_0
  have h0 : ¬t.val % 4 = 0 := by omega
  obtain ⟨n, hn⟩ := t
  cases n with
  | zero => exact absurd h3 (show ¬(0 % 4 = 3) by decide)
  | succ n =>
    obtain ⟨_, e2⟩ := carried_next m c ⟨n + 1, hn⟩ h0
    obtain ⟨hX', hS⟩ := carried m c (n + 1) hn
    obtain ⟨ihX, _⟩ := carried m c n (Nat.lt_of_succ_lt hn)
    have hb : bat n (Nat.lt_of_succ_lt hn) = bat (n + 1) hn := Fin.ext (by show n / 4 = (n + 1) / 4; dsimp only at h3; omega)
    refine (congrFun (out_last m c ⟨n + 1, hn⟩ h3) (ix3 (0 : Fin 1) (0 : Fin 1) d)).trans ?_
    refine (pay4_apply _ _ d).trans ?_
    unfold outK
    refine Finset.sum_congr rfl fun l _ => ?_
    refine congrArg₂ (· * ·) (congrArg (· * invL) ?_) ((ihX l d).trans (by rw [hb]))
    refine ((congrFun e2 (ix2 (0 : Fin 1) l)).symm.trans (hS l)).trans ?_
    dsimp only at h3
    rw [h3, ← Fin.sum_univ_eq_sum_range (fun k => tsum (XK m c) (bat (n + 1) hn) k l) 4]
    exact Finset.sum_congr rfl fun j _ => by unfold tsum; rw [dif_pos j.isLt]

end Cert.KernelIdeal.KVal
end
-- ==== Proof.KernelValue.lean ====
/-
  The idealized kernel's run with both result arrays named.

  The first result has one block per batch, written back once, after the batch's last step, when it
  holds ∑_l ((∑_m W[m,l]) · 2⁻¹¹) · X[b,l,d] with the sum over m taken tile by tile; the sixteen
  blocks cover the array, so the array ends holding that function of the arguments. The second
  result is the word of 2⁻¹¹ at every entry. The arguments end as launched.
-/
import proofs.«136351_j42082089566246_2_alg».proof.Proof.Values
import proofs.«136351_j42082089566246_2_alg».proof.Proof.Blocks

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen ValueIdx Cert.AttnSpec Cert.KernelIdeal.KBlk

variable (m : (ℓ : Loc nD τ sig) → Buf (Elt Ideal) ℓ) (ρ : Dev nD → PrngReg)

/-- The first result as one function of the argument arrays. -/
abbrev firstResult (c : Dev nD) : S16x1x128.Idx → EReal := fun i => outK (XK m c) (i 0) (i 2)

/-- The first result array after the run: each batch's block is written back once, at the batch's last
    point, holding that batch's row of the first result, and the sixteen blocks cover the array. -/
theorem final_first (c : Dev nD) : (dats m 0 c).arrAt 2 cfg0.N = firstResult m c :=
  arrAt2_eq m c (firstResult m c) (fun t h3 d => out_value m c t h3 d)

/-- Every run of the idealized kernel ends with the first result at the specification's column-sums-first
    form, the second at the word of 2⁻¹¹, and the arguments as launched. -/
theorem run_value : ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread _ Cert.KernelIdeal.τ).loc Cert.KernelIdeal.main_v1)
            = (fun i => Cert.AttnSpec.outK (Cert.AttnSpec.xm (Cert.AttnSpec.arr3 (m ((c.tc : Thread _ Cert.KernelIdeal.τ).loc Cert.KernelIdeal.main_arg0)))
                (Cert.AttnSpec.arr2 (m ((c.tc : Thread _ Cert.KernelIdeal.τ).loc Cert.KernelIdeal.main_arg1)))) (i 0) (i 2))
        ∧ r.2.mem ((c.tc : Thread _ Cert.KernelIdeal.τ).loc Cert.KernelIdeal.main_v2) = (fun _ => Cert.AttnSpec.invL)
        ∧ r.2.mem ((c.tc : Thread _ Cert.KernelIdeal.τ).loc Cert.KernelIdeal.main_arg0) = m ((c.tc : Thread _ Cert.KernelIdeal.τ).loc Cert.KernelIdeal.main_arg0)
        ∧ r.2.mem ((c.tc : Thread _ Cert.KernelIdeal.τ).loc Cert.KernelIdeal.main_arg1) = m ((c.tc : Thread _ Cert.KernelIdeal.τ).loc Cert.KernelIdeal.main_arg1)) :=
  fun m ρ => (θ_run defs _ _).mono (fun _ h c =>
    ⟨(h c).1.trans (final_first m c), (h c).2.1.trans (funext fun _ => rfl), (h c).2.2.1, (h c).2.2.2⟩) (run_named m ρ)

end Cert.KernelIdeal.KVal
end
-- ==== Proof.lean ====
/-
  The kernel and the reference compute the same two arrays at the exact reading.

  Write X[b,l,d] = input[b,l,d] · mask[b,l], S[m,l] = ∑_d X[m,d] · X[l,d] and
  W[m,l] = exp (S[m,l] − max_l S[m,l]) / ∑_l exp (S[m,l] − max_l S[m,l]), the row-softmax of the Gram matrix of X.
  The kernel sums the columns of W over four tiles of 512 rows, scales by 2⁻¹¹ and contracts with X:
  ∑_l ((∑_m W[m,l]) · 2⁻¹¹) · X[l,d]; its second result is the constant 2⁻¹¹. The reference contracts first,
  (∑_m ∑_l W[m,l] · X[l,d]) / 2048, and takes (∑_l W[m,l]) / 2048 for the second result.
  The two are joined by exchanging the finite sums over m and l, by distributing the product over the sum, by
  x / 2048 = x · 2⁻¹¹, and by ∑_l W[m,l] = 1. These laws hold for real numbers and fail on the extended reals
  (∞ − ∞, 0 · ∞), so finiteness of the input and of the mask — the precondition — is used exactly once: it makes every
  entry of X real, hence every score real, every shifted exponential a positive real and every normalizer a
  positive real, after which the whole computation takes place in ℝ.
-/
import proofs.«136351_j42082089566246_2_alg».proof.Defs
import proofs.«136351_j42082089566246_2_alg».proof.Proof.Gen.Kernel
import proofs.«136351_j42082089566246_2_alg».proof.Proof.Gen.Kernel.Skeleton
import proofs.«136351_j42082089566246_2_alg».proof.Proof.Gen.Kernel.Launch
import proofs.«136351_j42082089566246_2_alg».proof.Proof.Gen.Kernel.Points
import proofs.«136351_j42082089566246_2_alg».proof.Proof.Gen.Kernel.Frame
import proofs.«136351_j42082089566246_2_alg».proof.Proof.Gen.KernelIdeal
import proofs.«136351_j42082089566246_2_alg».proof.Proof.Gen.KernelIdeal.Skeleton
import proofs.«136351_j42082089566246_2_alg».proof.Proof.Gen.KernelIdeal.Launch
import proofs.«136351_j42082089566246_2_alg».proof.Proof.Gen.KernelIdeal.Points
import proofs.«136351_j42082089566246_2_alg».proof.Proof.Gen.KernelIdeal.Frame
import proofs.«136351_j42082089566246_2_alg».proof.Proof.Gen.ReferenceIdeal
import proofs.«136351_j42082089566246_2_alg».proof.Proof.Gen.ReferenceIdeal.Run
import proofs.«136351_j42082089566246_2_alg».proof.Proof.Gen.ReferenceIdeal.Read
import proofs.«136351_j42082089566246_2_alg».proof.Proof.Gen.Pre_finite_inputs
import proofs.«136351_j42082089566246_2_alg».proof.Proof.Claims
import proofs.«136351_j42082089566246_2_alg».proof.Proof.KernelValue

noncomputable section

namespace Cert.Proof

open Cert.Proof.Claims

/-- The five claims under the proved side conditions: the three runs, the exact reading having the kernel's own
    operations, and the equality of the results from the kernel's run and the reference's. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic_of Cert.KernelIdeal.KVal.run_value⟩

end Cert.Proof

end
